-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x1 .f32) (main_arg15 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 143
  | .vmem => 42
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x1, .f32⟩
  | 15 => ⟨S1, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S_, .f32⟩
  | 34 => ⟨S850000, .f32⟩
  | 35 => ⟨S50000, .f32⟩
  | 36 => ⟨S_, .f32⟩
  | 37 => ⟨S50000, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S50000x128, .f32⟩
  | 82 => ⟨S50000x128, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x128, .f32⟩
  | 92 => ⟨S850000x1, .f32⟩
  | 93 => ⟨S850000x128, .f32⟩
  | 94 => ⟨S850000x128, .f32⟩
  | 95 => ⟨S_, .f32⟩
  | 96 => ⟨S50000x128, .f32⟩
  | 97 => ⟨S850000x1, .i32⟩
  | 98 => ⟨S50000x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S50000x128, .f32⟩
  | 105 => ⟨S_, .f32⟩
  | 106 => ⟨S128x128, .f32⟩
  | 107 => ⟨S_, .i32⟩
  | 108 => ⟨S1, .i32⟩
  | 109 => ⟨S128x128, .f32⟩
  | 110 => ⟨S_, .f32⟩
  | 111 => ⟨S128, .f32⟩
  | 112 => ⟨S_, .i32⟩
  | 113 => ⟨S1, .i32⟩
  | 114 => ⟨S128, .f32⟩
  | 115 => ⟨S50000x128, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S850000x1, .f32⟩
  | 126 => ⟨S850000x128, .f32⟩
  | 127 => ⟨S850000x128, .f32⟩
  | _ => ⟨S50000x128, .f32⟩

abbrev hbmTy0_1 (i : Nat) : BufTy := match i % 128 with
  | 0 => ⟨S_, .f32⟩
  | 1 => ⟨S50000x128, .f32⟩
  | 2 => ⟨S850000x1, .i32⟩
  | 3 => ⟨S50000x128, .f32⟩
  | 4 => ⟨S_, .f32⟩
  | 5 => ⟨S128, .f32⟩
  | 6 => ⟨S_, .f32⟩
  | 7 => ⟨S128, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S50000x128, .f32⟩
  | 14 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_c_14 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_c_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_20 : Ref sig .tc := ⟨.hbm, 132, rfl⟩
abbrev main_v94 : Ref sig .tc := ⟨.hbm, 133, rfl⟩
abbrev main_cst_21 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S128x128_S128x128 : S128x128.ShapeCasts S128x128
  slices_S50000x128_S50000x1_0_0 : S50000x128.Slices ![0, 0] S50000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128x128_S1_S128x1_01_n_1_0_wf : ScatterDims.WF S128x128 S1 S128x1 [0, 1] [] [1] 0
  scatter_S128_S1_S1_0_n_0_0_wf : ScatterDims.WF S128 S1 S1 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def scatter_S128_S1_S1_0_n_0_0 : ScatterDims S128 S1 S1 where
  updateWindowDims := [0]
  insertedWindowDims := []
  scatterDimsToOperandDims := [0]
  indexVectorDim := 0
  wf := scatter_S128_S1_S1_0_n_0_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v93) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v101) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x1, .f32⟩
  | 15 => ⟨S1, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S_, .f32⟩
  | 34 => ⟨S850000, .f32⟩
  | 35 => ⟨S50000, .f32⟩
  | 36 => ⟨S_, .f32⟩
  | 37 => ⟨S50000, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .f32⟩
  | 106 => ⟨S850000x1, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S128, .f32⟩
  | 121 => ⟨S128, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x1, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x1, .f32⟩
  | 15 => ⟨S850000x1, .f32⟩
  | 16 => ⟨S850000x1, .f32⟩
  | 17 => ⟨S_, .f32⟩
  | 18 => ⟨S50000x1, .f32⟩
  | 19 => ⟨S850000x1, .i32⟩
  | 20 => ⟨S50000x1, .f32⟩
  | 21 => ⟨S1x1, .f32⟩
  | 22 => ⟨S50000x1, .f32⟩
  | 23 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call0_cst : Ref sig .tc := ⟨.hbm, 93, rfl⟩
abbrev main_call0_v0 : Ref sig .tc := ⟨.hbm, 94, rfl⟩
abbrev main_v64 : Ref sig .tc := ⟨.hbm, 95, rfl⟩
abbrev main_v65 : Ref sig .tc := ⟨.hbm, 96, rfl⟩
abbrev main_c_11 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_14 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call1_cst : Ref sig .tc := ⟨.hbm, 130, rfl⟩
abbrev main_call1_v0 : Ref sig .tc := ⟨.hbm, 131, rfl⟩
abbrev main_v95 : Ref sig .tc := ⟨.hbm, 132, rfl⟩
abbrev main_v96 : Ref sig .tc := ⟨.hbm, 133, rfl⟩
abbrev main_c_15 : Ref sig .tc := ⟨.hbm, 134, rfl⟩
abbrev main_v97 : Ref sig .tc := ⟨.hbm, 135, rfl⟩
abbrev main_v98 : Ref sig .tc := ⟨.hbm, 136, rfl⟩
abbrev main_c_16 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_17 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.ValueRun.lean ====
/-
  The idealized kernel program's run with its RESULT kept.

  The program is six pallas_call regions among stretches of host operations.  Every weakly fair execution of it
  from a memory m terminates, nothing faulting, and ends with every buffer that outlives the regions at the
  contents obtained by folding the program through m: a host stretch applies its operations' pure functions, a
  region replaces its output arrays by what its grid points write back and leaves every other buffer alone.
  The frame claim keeps of this only that the argument arrays end unchanged; here the result buffer is kept
  as well, at the last boundary's contents.
-/
import proofs.«148847_j51170240364590_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents (the fold of the program through the launch memory) and the arguments end as launched. -/
theorem run_result : θ_run defs (onTc (τ := τ) (main (F := F))) ⟨m, fun _ => 0, ρ⟩ (fun r => ∀ c : Dev nD,
      r.2.mem ((c.tc : Thread nD τ).loc main_v102) = W12 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v102 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.ValueRun

end
-- ==== Proof.MatmulBody.lean ====
/-
  The matmul kernel's body, read at an index.

  The body multiplies a block of 5000 rows and 128 columns by a 128 × 128 matrix on the matrix unit, into a zero
  accumulator, after rounding both operands to bf16.  On the extended reals a change of float format is the
  identity and the matrix unit's pass is the exact sum, so entry (p, q) of the body's result is
  ∑ k, x (p, k) · w (k, q).  The three layers' bodies differ only in identity reshapes of their operands.
-/
import proofs.«148847_j51170240364590_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.MatmulBody

open Idealize.ShloMosaic Idealize.ShloMosaic.ValueIdx Cert.KernelIdeal Cert.KernelIdeal.Gen

/-- The left operand's index: the result's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted coordinate as its column. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: the contracted coordinate as its row … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the result's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's pass into a zero accumulator, at entry (p, q): the sum over k of a (p, k) · b (k, q). -/
theorem blockProd_apply {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- Layer 1's body at an entry. -/
theorem body0_apply (x : Vec Ideal S5000x128 .f32) (w : Vec Ideal S128x128 .f32) (j : S5000x128.Idx) :
    k0_pay1 x w j = ∑ k : Fin 128, x (ix2 (j 0) k) * w (ix2 k (j 1)) := by
  obtain ⟨p, q, rfl⟩ : ∃ (p : Fin 5000) (q : Fin 128), j = ix2 p q := ⟨j 0, j 1, eq_ix2 j⟩
  unfold k0_pay1
  exact blockProd_apply _ _ p q

/-- Layer 2's body at an entry (its left operand passes an identity reshape first). -/
theorem body2_apply (x : Vec Ideal S5000x128 .f32) (w : Vec Ideal S128x128 .f32) (j : S5000x128.Idx) :
    k2_pay1 x w j = ∑ k : Fin 128, x (ix2 (j 0) k) * w (ix2 k (j 1)) := by
  obtain ⟨p, q, rfl⟩ : ∃ (p : Fin 5000) (q : Fin 128), j = ix2 p q := ⟨j 0, j 1, eq_ix2 j⟩
  unfold k2_pay1
  rw [shapeCast_self]
  exact blockProd_apply _ _ p q

/-- Layer 3's body at an entry (both operands pass an identity reshape first). -/
theorem body4_apply (x : Vec Ideal S5000x128 .f32) (w : Vec Ideal S128x128 .f32) (j : S5000x128.Idx) :
    k4_pay1 x w j = ∑ k : Fin 128, x (ix2 (j 0) k) * w (ix2 k (j 1)) := by
  obtain ⟨p, q, rfl⟩ : ∃ (p : Fin 5000) (q : Fin 128), j = ix2 p q := ⟨j 0, j 1, eq_ix2 j⟩
  unfold k4_pay1
  rw [shapeCast_self, shapeCast_self]
  exact blockProd_apply _ _ p q

end Cert.KernelIdeal.MatmulBody

end
-- ==== Proof.MatmulRegion0.lean ====
/-
  The matmul region of layer 1: its output array as one function of its two input arrays.

  The region's grid has 10 points; point t multiplies rows 5000 t … 5000 t + 4999 of the left array (its block t)
  by the whole 128 × 128 right array and writes the product back as block t of the output.  The output's blocks
  tile its 50000 rows, so after the region entry (r, q) of the output array is ∑ k, a (r, k) · b (k, q):
  the product of the two arrays as the region found them.
-/
import proofs.«148847_j51170240364590_1_alg».proof.Proof.Gen.KernelIdeal.Frame
import proofs.«148847_j51170240364590_1_alg».proof.Proof.MatmulBody

set_option maxRecDepth 16384

noncomputable section

namespace Cert.KernelIdeal.MatmulRegion0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's arrays: the left operand, the right operand, the output. -/
theorem arr_left : Pipeline.arrRef spec0 0 = main_arg0 := rfl
theorem arr_right : Pipeline.arrRef spec0 1 = main_arg2 := rfl
theorem arr_out : Pipeline.arrRef spec0 2 = main_v34 := rfl

theorem zero_offsets : (![0, 0] : Fin 2 → Nat) = fun _ => 0 := funext fun a => by fin_cases a <;> rfl

/-- The product of a 50000 × 128 array and a 128 × 128 one, entry by entry. -/
def prod (a : S50000x128.Idx → EReal) (b : S128x128.Idx → EReal) : S50000x128.Idx → EReal :=
  fun i => ∑ k : Fin 128, a (ix2 (i 0) k) * b (ix2 k (i 1))

/-- A sum of products of block entries is an entry of the product once each factor is read in its array. -/
theorem sum_blocks (A : S50000x128.Idx → EReal) (B : S128x128.Idx → EReal) (x : S5000x128.Idx → EReal) (w : S128x128.Idx → EReal)
    (j : S5000x128.Idx) (i : S50000x128.Idx) (hx : ∀ k : Fin 128, x (ix2 (j 0) k) = A (ix2 (i 0) k))
    (hw : ∀ k : Fin 128, w (ix2 k (j 1)) = B (ix2 k (i 1))) :
    (∑ k : Fin 128, x (ix2 (j 0) k) * w (ix2 k (j 1))) = prod A B i := by
  unfold prod
  exact Finset.sum_congr rfl fun k _ => by rw [hx k, hw k]

/-- The index maps over the grid: point t takes row block t of the left array and of the output, and the one block
    of the right array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays. -/
theorem writeback_eq (c : Dev nD) (t : Fin cfg0.N) :
    (dat0 V c).flushed 2 t = ((cfg0.win 2).blk t).view.read (Elt Ideal)
      (prod (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_indices t
  funext j
  refine (MatmulBody.body0_apply _ _ j).trans ?_
  show _ = prod (V c (Pipeline.arrRef spec0 0)) (V c (Pipeline.arrRef spec0 1)) (((cfg0.win 2).blk t).view.emb j)
  refine sum_blocks _ _ _ _ j _ (fun k => ?_) (fun k => ?_)
  · show V c (Pipeline.arrRef spec0 0) (((cfg0.win 0).blk t).view.emb (ix2 (j 0) k))
        = V c (Pipeline.arrRef spec0 0) (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c (Pipeline.arrRef spec0 1) (((cfg0.win 1).blk t).view.emb (ix2 k (j 1)))
        = V c (Pipeline.arrRef spec0 1) (ix2 k ((((cfg0.win 2).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Row r of the output lies in the block of point r / 5000: the blocks cover the array. -/
theorem blocks_cover (i : S50000x128.Idx) :
    ∃ t : Fin cfg0.N, (cfg0.win 2).flush t = true ∧ i ∈ ((cfg0.win 2).blk t).view.set := by
  have hN : grid0.N = 10 := N_0
  have hi0 : (i 0).val < 50000 := (i 0).isLt
  have hi1 : (i 1).val < 128 := (i 1).isLt
  have ht : (i 0).val / 5000 < cfg0.N := by show (i 0).val / 5000 < grid0.N; omega
  obtain ⟨e0, e1, e2, e3, e4, e5⟩ := block_indices ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- After the region the output array is the product of the two input arrays as the region found them. -/
theorem output_eq (c : Dev nD) :
    (dat0 V c).arrAt 2 cfg0.N = prod (V c (Pipeline.arrRef spec0 0)) (V c (Pipeline.arrRef spec0 1)) :=
  (dat0 V c).arrAt_eq_of_cover 2 _ (fun t _ => writeback_eq V c t) blocks_cover

end Cert.KernelIdeal.MatmulRegion0

end
-- ==== Proof.Layer1.lean ====
/-
  Layer 1 of the kernel program up to its aggregation, stage by stage against the reference.

  Both programs begin with the same host operations on the edge list: the self loops are appended to the sources
  and the targets, the degrees are counted, and each edge gets the weight 1/sqrt(deg src) · 1/sqrt(deg dst).  The
  kernel program then forms x · W1 in a pallas_call region where the reference applies one dot_general; on the
  extended reals both are the same sums.  The gather of the product's rows by source, the scaling by the edge
  weights and the scatter-add by target are again the same host operations on both sides.  So each buffer of the
  kernel program named below holds the reference's value of the corresponding operation.
-/
import proofs.«148847_j51170240364590_1_alg».proof.Proof.Gen.KernelIdeal.Frame
import proofs.«148847_j51170240364590_1_alg».proof.Proof.Gen.ReferenceIdeal.Read
import proofs.«148847_j51170240364590_1_alg».proof.Proof.MatmulRegion0

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-- The contents the first region is entered with: each argument as launched … -/
theorem entry_arg0 : W1 m ρ c (Proc.devRef .tc main_arg0) = m ((c : Thread nD τ).loc main_arg0) := by
  show StableHlo.after hostOps0 (W0 m ρ c) (Proc.devRef .tc main_arg0) = _
  after_results_simp <;> rfl
theorem entry_arg2 : W1 m ρ c (Proc.devRef .tc main_arg2) = m ((c : Thread nD τ).loc main_arg2) := by
  show StableHlo.after hostOps0 (W0 m ρ c) (Proc.devRef .tc main_arg2) = _
  after_results_simp <;> rfl

/-- … the sources with the self loops appended … -/
theorem entry_sources : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
/-- … the targets with the self loops appended … -/
theorem entry_targets : W1 m ρ c (Proc.devRef .tc main_v6) = val_main_v6 (F := Ideal) (m ((c : Thread nD τ).loc main_arg1)) := by
  show StableHlo.after hostOps0 (W0 m ρ c) (Proc.devRef .tc main_v6) = _
  after_results_simp <;> rfl
/-- … and the edge weights. -/
theorem entry_weights : W1 m ρ c (Proc.devRef .tc main_v33) = val_main_v33 (F := Ideal) (m ((c : Thread nD τ).loc main_arg1)) := by
  show StableHlo.after hostOps0 (W0 m ρ c) (Proc.devRef .tc main_v33) = _
  after_results_simp <;> rfl

/-- The first region writes only its output: every other buffer is as entered. -/
theorem region0_keeps (b : Ref sig .tc) (hb : ∀ w, Pipeline.arrRef spec0 w ≠ b) :
    W2 m ρ c (Proc.devRef .tc b) = W1 m ρ c (Proc.devRef .tc b) := W2_of_ne m ρ c b hb

/-- After the first region its output holds x · W1, the reference's dot_general. -/
theorem product1 : W2 m ρ c (Proc.devRef .tc main_v34) = val_main_v34 (F := Ideal) (m ((c : Thread nD τ).loc main_arg0)) (m ((c : Thread nD τ).loc main_arg2)) := by
  refine (W2_arr m ρ c 2).trans ?_
  rw [MatmulRegion0.output_eq]
  funext i
  rw [val_main_v34_apply]
  unfold MatmulRegion0.prod
  refine Finset.sum_congr rfl fun k _ => ?_
  have h0 : V1 m ρ c (Pipeline.arrRef spec0 0) = m ((c : Thread nD τ).loc main_arg0) := entry_arg0 m ρ c
  have h2 : V1 m ρ c (Pipeline.arrRef spec0 1) = m ((c : Thread nD τ).loc main_arg2) := entry_arg2 m ρ c
  rw [h0, h2]
  have el : (ix2 (i 0) k : S50000x128.Idx) = lidx_main_v34 i k := funext fun a => Fin.ext (by
    match a with
    | ⟨0, _⟩ => rfl
    | ⟨1, _⟩ => rfl)
  have er : (ix2 k (i 1) : S128x128.Idx) = ridx_main_v34 i k := funext fun a => Fin.ext (by
    match a with
    | ⟨0, _⟩ => rfl
    | ⟨1, _⟩ => rfl)
  rw [el, er]

/-- After the host stretch that follows, the aggregation of layer 1 holds the reference's scatter-add. -/
theorem aggregate1 : W3 m ρ c (Proc.devRef .tc main_v47) = val_main_v47 (F := Ideal) (m ((c : Thread nD τ).loc main_arg0)) (m ((c : Thread nD τ).loc main_arg1)) (m ((c : Thread nD τ).loc main_arg2)) := by
  show StableHlo.after hostOps1 (W2 m ρ c) (Proc.devRef .tc main_v47) = _
  after_results
  rw [product1 m ρ c, region0_keeps m ρ c main_v3 (by decide), region0_keeps m ρ c main_v6 (by decide),
    region0_keeps m ρ c main_v33 (by decide), entry_sources m ρ c, entry_targets m ρ c, entry_weights m ρ c]
  rfl

end Cert.KernelIdeal.Layer1

end
-- ==== Proof.Carried.lean ====
/-
  Buffers that later stages read long after they were written.

  The arguments, the edge sources and targets with the self loops appended, and the edge weights are written
  before the first region (or at launch) and read again by the later host stretches and regions.  No later host
  operation writes any of them and no region has one of them as an output, so at every later boundary each still
  holds what it held when the first region was entered.
-/
import proofs.«148847_j51170240364590_1_alg».proof.Proof.Gen.KernelIdeal.Frame
import proofs.«148847_j51170240364590_1_alg».proof.Proof.Gen.ReferenceIdeal.Read
import proofs.«148847_j51170240364590_1_alg».proof.Proof.Layer1

set_option maxRecDepth 16384

noncomputable section

namespace Cert.KernelIdeal.Carried

open Idealize.ShloMosaic Idealize.ShloMosaic.TcCoe Idealize.ShloMosaic.ValueIdx Idealize.SL.Sem
open Cert.KernelIdeal Cert.KernelIdeal.Gen
open Cert.ReferenceIdeal.Read
open Cert.KernelIdeal.Layer1

variable (m : (ℓ : Loc nD τ sig) → Buf (Elt Ideal) ℓ) (ρ : Dev nD → PrngReg) (c : Dev nD)

/-- Argument 3 as the first region finds it is the launch memory's. -/
theorem entry_arg3 : W1 m ρ c (Proc.devRef .tc main_arg3) = m ((c : Thread nD τ).loc main_arg3) := by
  show StableHlo.after hostOps0 (W0 m ρ c) (Proc.devRef .tc main_arg3) = _
  after_results_simp <;> rfl

/-- Argument 4 as the first region finds it is the launch memory's. -/
theorem entry_arg4 : W1 m ρ c (Proc.devRef .tc main_arg4) = m ((c : Thread nD τ).loc main_arg4) := by
  show StableHlo.after hostOps0 (W0 m ρ c) (Proc.devRef .tc main_arg4) = _
  after_results_simp <;> rfl

/-- Argument 5 as the first region finds it is the launch memory's. -/
theorem entry_arg5 : W1 m ρ c (Proc.devRef .tc main_arg5) = m ((c : Thread nD τ).loc main_arg5) := by
  show StableHlo.after hostOps0 (W0 m ρ c) (Proc.devRef .tc main_arg5) = _
  after_results_simp <;> rfl

/-- Argument 6 as the first region finds it is the launch memory's. -/
theorem entry_arg6 : W1 m ρ c (Proc.devRef .tc main_arg6) = m ((c : Thread nD τ).loc main_arg6) := by
  show StableHlo.after hostOps0 (W0 m ρ c) (Proc.devRef .tc main_arg6) = _
  after_results_simp <;> rfl

/-- Argument 7 as the first region finds it is the launch memory's. -/
theorem entry_arg7 : W1 m ρ c (Proc.devRef .tc main_arg7) = m ((c : Thread nD τ).loc main_arg7) := by
  show StableHlo.after hostOps0 (W0 m ρ c) (Proc.devRef .tc main_arg7) = _
  after_results_simp <;> rfl

/-- Argument 8 as the first region finds it is the launch memory's. -/
theorem entry_arg8 : W1 m ρ c (Proc.devRef .tc main_arg8) = m ((c : Thread nD τ).loc main_arg8) := by
  show StableHlo.after hostOps0 (W0 m ρ c) (Proc.devRef .tc main_arg8) = _
  after_results_simp <;> rfl

/-- Argument 9 as the first region finds it is the launch memory's. -/
theorem entry_arg9 : W1 m ρ c (Proc.devRef .tc main_arg9) = m ((c : Thread nD τ).loc main_arg9) := by
  show StableHlo.after hostOps0 (W0 m ρ c) (Proc.devRef .tc main_arg9) = _
  after_results_simp <;> rfl

/-- Argument 10 as the first region finds it is the launch memory's. -/
theorem entry_arg10 : W1 m ρ c (Proc.devRef .tc main_arg10) = m ((c : Thread nD τ).loc main_arg10) := by
  show StableHlo.after hostOps0 (W0 m ρ c) (Proc.devRef .tc main_arg10) = _
  after_results_simp <;> rfl

/-- Argument 11 as the first region finds it is the launch memory's. -/
theorem entry_arg11 : W1 m ρ c (Proc.devRef .tc main_arg11) = m ((c : Thread nD τ).loc main_arg11) := by
  show StableHlo.after hostOps0 (W0 m ρ c) (Proc.devRef .tc main_arg11) = _
  after_results_simp <;> rfl

/-- Argument 12 as the first region finds it is the launch memory's. -/
theorem entry_arg12 : W1 m ρ c (Proc.devRef .tc main_arg12) = m ((c : Thread nD τ).loc main_arg12) := by
  show StableHlo.after hostOps0 (W0 m ρ c) (Proc.devRef .tc main_arg12) = _
  after_results_simp <;> rfl

/-- Argument 13 as the first region finds it is the launch memory's. -/
theorem entry_arg13 : W1 m ρ c (Proc.devRef .tc main_arg13) = m ((c : Thread nD τ).loc main_arg13) := by
  show StableHlo.after hostOps0 (W0 m ρ c) (Proc.devRef .tc main_arg13) = _
  after_results_simp <;> rfl

/-- Argument 14 as the first region finds it is the launch memory's. -/
theorem entry_arg14 : W1 m ρ c (Proc.devRef .tc main_arg14) = m ((c : Thread nD τ).loc main_arg14) := by
  show StableHlo.after hostOps0 (W0 m ρ c) (Proc.devRef .tc main_arg14) = _
  after_results_simp <;> rfl

/-- Argument 15 as the first region finds it is the launch memory's. -/
theorem entry_arg15 : W1 m ρ c (Proc.devRef .tc main_arg15) = m ((c : Thread nD τ).loc main_arg15) := by
  show StableHlo.after hostOps0 (W0 m ρ c) (Proc.devRef .tc main_arg15) = _
  after_results_simp <;> rfl

theorem kept2_main_arg3 : W2 m ρ c (Proc.devRef .tc main_arg3) = W1 m ρ c (Proc.devRef .tc main_arg3) :=
  ((W2_of_ne m ρ c main_arg3 (by decide)) : W2 m ρ c (Proc.devRef .tc main_arg3) = W1 m ρ c (Proc.devRef .tc main_arg3))

theorem kept2_main_arg4 : W2 m ρ c (Proc.devRef .tc main_arg4) = W1 m ρ c (Proc.devRef .tc main_arg4) :=
  ((W2_of_ne m ρ c main_arg4 (by decide)) : W2 m ρ c (Proc.devRef .tc main_arg4) = W1 m ρ c (Proc.devRef .tc main_arg4))

theorem kept2_main_arg5 : W2 m ρ c (Proc.devRef .tc main_arg5) = W1 m ρ c (Proc.devRef .tc main_arg5) :=
  ((W2_of_ne m ρ c main_arg5 (by decide)) : W2 m ρ c (Proc.devRef .tc main_arg5) = W1 m ρ c (Proc.devRef .tc main_arg5))

theorem kept2_main_arg6 : W2 m ρ c (Proc.devRef .tc main_arg6) = W1 m ρ c (Proc.devRef .tc main_arg6) :=
  ((W2_of_ne m ρ c main_arg6 (by decide)) : W2 m ρ c (Proc.devRef .tc main_arg6) = W1 m ρ c (Proc.devRef .tc main_arg6))

theorem kept2_main_arg7 : W2 m ρ c (Proc.devRef .tc main_arg7) = W1 m ρ c (Proc.devRef .tc main_arg7) :=
  ((W2_of_ne m ρ c main_arg7 (by decide)) : W2 m ρ c (Proc.devRef .tc main_arg7) = W1 m ρ c (Proc.devRef .tc main_arg7))

theorem kept2_main_arg8 : W2 m ρ c (Proc.devRef .tc main_arg8) = W1 m ρ c (Proc.devRef .tc main_arg8) :=
  ((W2_of_ne m ρ c main_arg8 (by decide)) : W2 m ρ c (Proc.devRef .tc main_arg8) = W1 m ρ c (Proc.devRef .tc main_arg8))

theorem kept3_main_arg8 : W3 m ρ c (Proc.devRef .tc main_arg8) = W1 m ρ c (Proc.devRef .tc main_arg8) :=
  ((by show StableHlo.after hostOps1 (W2 m ρ c) (Proc.devRef .tc main_arg8) = W2 m ρ c (Proc.devRef .tc main_arg8); after_results_simp <;> rfl) : W3 m ρ c (Proc.devRef .tc main_arg8) = W2 m ρ c (Proc.devRef .tc main_arg8)).trans (kept2_main_arg8 m ρ c)

theorem kept4_main_arg8 : W4 m ρ c (Proc.devRef .tc main_arg8) = W1 m ρ c (Proc.devRef .tc main_arg8) :=
  ((W4_of_ne m ρ c main_arg8 (by decide)) : W4 m ρ c (Proc.devRef .tc main_arg8) = W3 m ρ c (Proc.devRef .tc main_arg8)).trans (kept3_main_arg8 m ρ c)

theorem kept2_main_arg9 : W2 m ρ c (Proc.devRef .tc main_arg9) = W1 m ρ c (Proc.devRef .tc main_arg9) :=
  ((W2_of_ne m ρ c main_arg9 (by decide)) : W2 m ρ c (Proc.devRef .tc main_arg9) = W1 m ρ c (Proc.devRef .tc main_arg9))

theorem kept3_main_arg9 : W3 m ρ c (Proc.devRef .tc main_arg9) = W1 m ρ c (Proc.devRef .tc main_arg9) :=
  ((by show StableHlo.after hostOps1 (W2 m ρ c) (Proc.devRef .tc main_arg9) = W2 m ρ c (Proc.devRef .tc main_arg9); after_results_simp <;> rfl) : W3 m ρ c (Proc.devRef .tc main_arg9) = W2 m ρ c (Proc.devRef .tc main_arg9)).trans (kept2_main_arg9 m ρ c)

theorem kept4_main_arg9 : W4 m ρ c (Proc.devRef .tc main_arg9) = W1 m ρ c (Proc.devRef .tc main_arg9) :=
  ((W4_of_ne m ρ c main_arg9 (by decide)) : W4 m ρ c (Proc.devRef .tc main_arg9) = W3 m ρ c (Proc.devRef .tc main_arg9)).trans (kept3_main_arg9 m ρ c)

theorem kept5_main_arg9 : W5 m ρ c (Proc.devRef .tc main_arg9) = W1 m ρ c (Proc.devRef .tc main_arg9) :=
  ((W5_of_ne m ρ c main_arg9 (by decide)) : W5 m ρ c (Proc.devRef .tc main_arg9) = W4 m ρ c (Proc.devRef .tc main_arg9)).trans (kept4_main_arg9 m ρ c)

theorem kept2_main_arg10 : W2 m ρ c (Proc.devRef .tc main_arg10) = W1 m ρ c (Proc.devRef .tc main_arg10) :=
  ((W2_of_ne m ρ c main_arg10 (by decide)) : W2 m ρ c (Proc.devRef .tc main_arg10) = W1 m ρ c (Proc.devRef .tc main_arg10))

theorem kept3_main_arg10 : W3 m ρ c (Proc.devRef .tc main_arg10) = W1 m ρ c (Proc.devRef .tc main_arg10) :=
  ((by show StableHlo.after hostOps1 (W2 m ρ c) (Proc.devRef .tc main_arg10) = W2 m ρ c (Proc.devRef .tc main_arg10); after_results_simp <;> rfl) : W3 m ρ c (Proc.devRef .tc main_arg10) = W2 m ρ c (Proc.devRef .tc main_arg10)).trans (kept2_main_arg10 m ρ c)

theorem kept4_main_arg10 : W4 m ρ c (Proc.devRef .tc main_arg10) = W1 m ρ c (Proc.devRef .tc main_arg10) :=
  ((W4_of_ne m ρ c main_arg10 (by decide)) : W4 m ρ c (Proc.devRef .tc main_arg10) = W3 m ρ c (Proc.devRef .tc main_arg10)).trans (kept3_main_arg10 m ρ c)

theorem kept5_main_arg10 : W5 m ρ c (Proc.devRef .tc main_arg10) = W1 m ρ c (Proc.devRef .tc main_arg10) :=
  ((W5_of_ne m ρ c main_arg10 (by decide)) : W5 m ρ c (Proc.devRef .tc main_arg10) = W4 m ρ c (Proc.devRef .tc main_arg10)).trans (kept4_main_arg10 m ρ c)

theorem kept2_main_arg11 : W2 m ρ c (Proc.devRef .tc main_arg11) = W1 m ρ c (Proc.devRef .tc main_arg11) :=
  ((W2_of_ne m ρ c main_arg11 (by decide)) : W2 m ρ c (Proc.devRef .tc main_arg11) = W1 m ρ c (Proc.devRef .tc main_arg11))

theorem kept3_main_arg11 : W3 m ρ c (Proc.devRef .tc main_arg11) = W1 m ρ c (Proc.devRef .tc main_arg11) :=
  ((by show StableHlo.after hostOps1 (W2 m ρ c) (Proc.devRef .tc main_arg11) = W2 m ρ c (Proc.devRef .tc main_arg11); after_results_simp <;> rfl) : W3 m ρ c (Proc.devRef .tc main_arg11) = W2 m ρ c (Proc.devRef .tc main_arg11)).trans (kept2_main_arg11 m ρ c)

theorem kept4_main_arg11 : W4 m ρ c (Proc.devRef .tc main_arg11) = W1 m ρ c (Proc.devRef .tc main_arg11) :=
  ((W4_of_ne m ρ c main_arg11 (by decide)) : W4 m ρ c (Proc.devRef .tc main_arg11) = W3 m ρ c (Proc.devRef .tc main_arg11)).trans (kept3_main_arg11 m ρ c)

theorem kept5_main_arg11 : W5 m ρ c (Proc.devRef .tc main_arg11) = W1 m ρ c (Proc.devRef .tc main_arg11) :=
  ((W5_of_ne m ρ c main_arg11 (by decide)) : W5 m ρ c (Proc.devRef .tc main_arg11) = W4 m ρ c (Proc.devRef .tc main_arg11)).trans (kept4_main_arg11 m ρ c)

theorem kept2_main_arg12 : W2 m ρ c (Proc.devRef .tc main_arg12) = W1 m ρ c (Proc.devRef .tc main_arg12) :=
  ((W2_of_ne m ρ c main_arg12 (by decide)) : W2 m ρ c (Proc.devRef .tc main_arg12) = W1 m ρ c (Proc.devRef .tc main_arg12))

theorem kept3_main_arg12 : W3 m ρ c (Proc.devRef .tc main_arg12) = W1 m ρ c (Proc.devRef .tc main_arg12) :=
  ((by show StableHlo.after hostOps1 (W2 m ρ c) (Proc.devRef .tc main_arg12) = W2 m ρ c (Proc.devRef .tc main_arg12); after_results_simp <;> rfl) : W3 m ρ c (Proc.devRef .tc main_arg12) = W2 m ρ c (Proc.devRef .tc main_arg12)).trans (kept2_main_arg12 m ρ c)

theorem kept4_main_arg12 : W4 m ρ c (Proc.devRef .tc main_arg12) = W1 m ρ c (Proc.devRef .tc main_arg12) :=
  ((W4_of_ne m ρ c main_arg12 (by decide)) : W4 m ρ c (Proc.devRef .tc main_arg12) = W3 m ρ c (Proc.devRef .tc main_arg12)).trans (kept3_main_arg12 m ρ c)

theorem kept5_main_arg12 : W5 m ρ c (Proc.devRef .tc main_arg12) = W1 m ρ c (Proc.devRef .tc main_arg12) :=
  ((W5_of_ne m ρ c main_arg12 (by decide)) : W5 m ρ c (Proc.devRef .tc main_arg12) = W4 m ρ c (Proc.devRef .tc main_arg12)).trans (kept4_main_arg12 m ρ c)

theorem kept2_main_arg13 : W2 m ρ c (Proc.devRef .tc main_arg13) = W1 m ρ c (Proc.devRef .tc main_arg13) :=
  ((W2_of_ne m ρ c main_arg13 (by decide)) : W2 m ρ c (Proc.devRef .tc main_arg13) = W1 m ρ c (Proc.devRef .tc main_arg13))

theorem kept3_main_arg13 : W3 m ρ c (Proc.devRef .tc main_arg13) = W1 m ρ c (Proc.devRef .tc main_arg13) :=
  ((by show StableHlo.after hostOps1 (W2 m ρ c) (Proc.devRef .tc main_arg13) = W2 m ρ c (Proc.devRef .tc main_arg13); after_results_simp <;> rfl) : W3 m ρ c (Proc.devRef .tc main_arg13) = W2 m ρ c (Proc.devRef .tc main_arg13)).trans (kept2_main_arg13 m ρ c)

theorem kept4_main_arg13 : W4 m ρ c (Proc.devRef .tc main_arg13) = W1 m ρ c (Proc.devRef .tc main_arg13) :=
  ((W4_of_ne m ρ c main_arg13 (by decide)) : W4 m ρ c (Proc.devRef .tc main_arg13) = W3 m ρ c (Proc.devRef .tc main_arg13)).trans (kept3_main_arg13 m ρ c)

theorem kept5_main_arg13 : W5 m ρ c (Proc.devRef .tc main_arg13) = W1 m ρ c (Proc.devRef .tc main_arg13) :=
  ((W5_of_ne m ρ c main_arg13 (by decide)) : W5 m ρ c (Proc.devRef .tc main_arg13) = W4 m ρ c (Proc.devRef .tc main_arg13)).trans (kept4_main_arg13 m ρ c)

theorem kept2_main_arg14 : W2 m ρ c (Proc.devRef .tc main_arg14) = W1 m ρ c (Proc.devRef .tc main_arg14) :=
  ((W2_of_ne m ρ c main_arg14 (by decide)) : W2 m ρ c (Proc.devRef .tc main_arg14) = W1 m ρ c (Proc.devRef .tc main_arg14))

theorem kept3_main_arg14 : W3 m ρ c (Proc.devRef .tc main_arg14) = W1 m ρ c (Proc.devRef .tc main_arg14) :=
  ((by show StableHlo.after hostOps1 (W2 m ρ c) (Proc.devRef .tc main_arg14) = W2 m ρ c (Proc.devRef .tc main_arg14); after_results_simp <;> rfl) : W3 m ρ c (Proc.devRef .tc main_arg14) = W2 m ρ c (Proc.devRef .tc main_arg14)).trans (kept2_main_arg14 m ρ c)

theorem kept4_main_arg14 : W4 m ρ c (Proc.devRef .tc main_arg14) = W1 m ρ c (Proc.devRef .tc main_arg14) :=
  ((W4_of_ne m ρ c main_arg14 (by decide)) : W4 m ρ c (Proc.devRef .tc main_arg14) = W3 m ρ c (Proc.devRef .tc main_arg14)).trans (kept3_main_arg14 m ρ c)

theorem kept5_main_arg14 : W5 m ρ c (Proc.devRef .tc main_arg14) = W1 m ρ c (Proc.devRef .tc main_arg14) :=
  ((W5_of_ne m ρ c main_arg14 (by decide)) : W5 m ρ c (Proc.devRef .tc main_arg14) = W4 m ρ c (Proc.devRef .tc main_arg14)).trans (kept4_main_arg14 m ρ c)

theorem kept6_main_arg14 : W6 m ρ c (Proc.devRef .tc main_arg14) = W1 m ρ c (Proc.devRef .tc main_arg14) :=
  ((by show StableHlo.after hostOps3 (W5 m ρ c) (Proc.devRef .tc main_arg14) = W5 m ρ c (Proc.devRef .tc main_arg14); after_results_simp <;> rfl) : W6 m ρ c (Proc.devRef .tc main_arg14) = W5 m ρ c (Proc.devRef .tc main_arg14)).trans (kept5_main_arg14 m ρ c)

theorem kept7_main_arg14 : W7 m ρ c (Proc.devRef .tc main_arg14) = W1 m ρ c (Proc.devRef .tc main_arg14) :=
  ((W7_of_ne m ρ c main_arg14 (by decide)) : W7 m ρ c (Proc.devRef .tc main_arg14) = W6 m ρ c (Proc.devRef .tc main_arg14)).trans (kept6_main_arg14 m ρ c)

theorem kept2_main_arg15 : W2 m ρ c (Proc.devRef .tc main_arg15) = W1 m ρ c (Proc.devRef .tc main_arg15) :=
  ((W2_of_ne m ρ c main_arg15 (by decide)) : W2 m ρ c (Proc.devRef .tc main_arg15) = W1 m ρ c (Proc.devRef .tc main_arg15))

theorem kept3_main_arg15 : W3 m ρ c (Proc.devRef .tc main_arg15) = W1 m ρ c (Proc.devRef .tc main_arg15) :=
  ((by show StableHlo.after hostOps1 (W2 m ρ c) (Proc.devRef .tc main_arg15) = W2 m ρ c (Proc.devRef .tc main_arg15); after_results_simp <;> rfl) : W3 m ρ c (Proc.devRef .tc main_arg15) = W2 m ρ c (Proc.devRef .tc main_arg15)).trans (kept2_main_arg15 m ρ c)

theorem kept4_main_arg15 : W4 m ρ c (Proc.devRef .tc main_arg15) = W1 m ρ c (Proc.devRef .tc main_arg15) :=
  ((W4_of_ne m ρ c main_arg15 (by decide)) : W4 m ρ c (Proc.devRef .tc main_arg15) = W3 m ρ c (Proc.devRef .tc main_arg15)).trans (kept3_main_arg15 m ρ c)

theorem kept5_main_arg15 : W5 m ρ c (Proc.devRef .tc main_arg15) = W1 m ρ c (Proc.devRef .tc main_arg15) :=
  ((W5_of_ne m ρ c main_arg15 (by decide)) : W5 m ρ c (Proc.devRef .tc main_arg15) = W4 m ρ c (Proc.devRef .tc main_arg15)).trans (kept4_main_arg15 m ρ c)

theorem kept6_main_arg15 : W6 m ρ c (Proc.devRef .tc main_arg15) = W1 m ρ c (Proc.devRef .tc main_arg15) :=
  ((by show StableHlo.after hostOps3 (W5 m ρ c) (Proc.devRef .tc main_arg15) = W5 m ρ c (Proc.devRef .tc main_arg15); after_results_simp <;> rfl) : W6 m ρ c (Proc.devRef .tc main_arg15) = W5 m ρ c (Proc.devRef .tc main_arg15)).trans (kept5_main_arg15 m ρ c)

theorem kept7_main_arg15 : W7 m ρ c (Proc.devRef .tc main_arg15) = W1 m ρ c (Proc.devRef .tc main_arg15) :=
  ((W7_of_ne m ρ c main_arg15 (by decide)) : W7 m ρ c (Proc.devRef .tc main_arg15) = W6 m ρ c (Proc.devRef .tc main_arg15)).trans (kept6_main_arg15 m ρ c)

theorem kept2_main_v3 : W2 m ρ c (Proc.devRef .tc main_v3) = W1 m ρ c (Proc.devRef .tc main_v3) :=
  ((W2_of_ne m ρ c main_v3 (by decide)) : W2 m ρ c (Proc.devRef .tc main_v3) = W1 m ρ c (Proc.devRef .tc main_v3))

theorem kept3_main_v3 : W3 m ρ c (Proc.devRef .tc main_v3) = W1 m ρ c (Proc.devRef .tc main_v3) :=
  ((by show StableHlo.after hostOps1 (W2 m ρ c) (Proc.devRef .tc main_v3) = W2 m ρ c (Proc.devRef .tc main_v3); after_results_simp <;> rfl) : W3 m ρ c (Proc.devRef .tc main_v3) = W2 m ρ c (Proc.devRef .tc main_v3)).trans (kept2_main_v3 m ρ c)

theorem kept4_main_v3 : W4 m ρ c (Proc.devRef .tc main_v3) = W1 m ρ c (Proc.devRef .tc main_v3) :=
  ((W4_of_ne m ρ c main_v3 (by decide)) : W4 m ρ c (Proc.devRef .tc main_v3) = W3 m ρ c (Proc.devRef .tc main_v3)).trans (kept3_main_v3 m ρ c)

theorem kept5_main_v3 : W5 m ρ c (Proc.devRef .tc main_v3) = W1 m ρ c (Proc.devRef .tc main_v3) :=
  ((W5_of_ne m ρ c main_v3 (by decide)) : W5 m ρ c (Proc.devRef .tc main_v3) = W4 m ρ c (Proc.devRef .tc main_v3)).trans (kept4_main_v3 m ρ c)

theorem kept6_main_v3 : W6 m ρ c (Proc.devRef .tc main_v3) = W1 m ρ c (Proc.devRef .tc main_v3) :=
  ((by show StableHlo.after hostOps3 (W5 m ρ c) (Proc.devRef .tc main_v3) = W5 m ρ c (Proc.devRef .tc main_v3); after_results_simp <;> rfl) : W6 m ρ c (Proc.devRef .tc main_v3) = W5 m ρ c (Proc.devRef .tc main_v3)).trans (kept5_main_v3 m ρ c)

theorem kept7_main_v3 : W7 m ρ c (Proc.devRef .tc main_v3) = W1 m ρ c (Proc.devRef .tc main_v3) :=
  ((W7_of_ne m ρ c main_v3 (by decide)) : W7 m ρ c (Proc.devRef .tc main_v3) = W6 m ρ c (Proc.devRef .tc main_v3)).trans (kept6_main_v3 m ρ c)

theorem kept8_main_v3 : W8 m ρ c (Proc.devRef .tc main_v3) = W1 m ρ c (Proc.devRef .tc main_v3) :=
  ((by show StableHlo.after hostOps4 (W7 m ρ c) (Proc.devRef .tc main_v3) = W7 m ρ c (Proc.devRef .tc main_v3); after_results_simp <;> rfl) : W8 m ρ c (Proc.devRef .tc main_v3) = W7 m ρ c (Proc.devRef .tc main_v3)).trans (kept7_main_v3 m ρ c)

theorem kept9_main_v3 : W9 m ρ c (Proc.devRef .tc main_v3) = W1 m ρ c (Proc.devRef .tc main_v3) :=
  ((W9_of_ne m ρ c main_v3 (by decide)) : W9 m ρ c (Proc.devRef .tc main_v3) = W8 m ρ c (Proc.devRef .tc main_v3)).trans (kept8_main_v3 m ρ c)

theorem kept2_main_v6 : W2 m ρ c (Proc.devRef .tc main_v6) = W1 m ρ c (Proc.devRef .tc main_v6) :=
  ((W2_of_ne m ρ c main_v6 (by decide)) : W2 m ρ c (Proc.devRef .tc main_v6) = W1 m ρ c (Proc.devRef .tc main_v6))

theorem kept3_main_v6 : W3 m ρ c (Proc.devRef .tc main_v6) = W1 m ρ c (Proc.devRef .tc main_v6) :=
  ((by show StableHlo.after hostOps1 (W2 m ρ c) (Proc.devRef .tc main_v6) = W2 m ρ c (Proc.devRef .tc main_v6); after_results_simp <;> rfl) : W3 m ρ c (Proc.devRef .tc main_v6) = W2 m ρ c (Proc.devRef .tc main_v6)).trans (kept2_main_v6 m ρ c)

theorem kept4_main_v6 : W4 m ρ c (Proc.devRef .tc main_v6) = W1 m ρ c (Proc.devRef .tc main_v6) :=
  ((W4_of_ne m ρ c main_v6 (by decide)) : W4 m ρ c (Proc.devRef .tc main_v6) = W3 m ρ c (Proc.devRef .tc main_v6)).trans (kept3_main_v6 m ρ c)

theorem kept5_main_v6 : W5 m ρ c (Proc.devRef .tc main_v6) = W1 m ρ c (Proc.devRef .tc main_v6) :=
  ((W5_of_ne m ρ c main_v6 (by decide)) : W5 m ρ c (Proc.devRef .tc main_v6) = W4 m ρ c (Proc.devRef .tc main_v6)).trans (kept4_main_v6 m ρ c)

theorem kept6_main_v6 : W6 m ρ c (Proc.devRef .tc main_v6) = W1 m ρ c (Proc.devRef .tc main_v6) :=
  ((by show StableHlo.after hostOps3 (W5 m ρ c) (Proc.devRef .tc main_v6) = W5 m ρ c (Proc.devRef .tc main_v6); after_results_simp <;> rfl) : W6 m ρ c (Proc.devRef .tc main_v6) = W5 m ρ c (Proc.devRef .tc main_v6)).trans (kept5_main_v6 m ρ c)

theorem kept7_main_v6 : W7 m ρ c (Proc.devRef .tc main_v6) = W1 m ρ c (Proc.devRef .tc main_v6) :=
  ((W7_of_ne m ρ c main_v6 (by decide)) : W7 m ρ c (Proc.devRef .tc main_v6) = W6 m ρ c (Proc.devRef .tc main_v6)).trans (kept6_main_v6 m ρ c)

theorem kept8_main_v6 : W8 m ρ c (Proc.devRef .tc main_v6) = W1 m ρ c (Proc.devRef .tc main_v6) :=
  ((by show StableHlo.after hostOps4 (W7 m ρ c) (Proc.devRef .tc main_v6) = W7 m ρ c (Proc.devRef .tc main_v6); after_results_simp <;> rfl) : W8 m ρ c (Proc.devRef .tc main_v6) = W7 m ρ c (Proc.devRef .tc main_v6)).trans (kept7_main_v6 m ρ c)

theorem kept9_main_v6 : W9 m ρ c (Proc.devRef .tc main_v6) = W1 m ρ c (Proc.devRef .tc main_v6) :=
  ((W9_of_ne m ρ c main_v6 (by decide)) : W9 m ρ c (Proc.devRef .tc main_v6) = W8 m ρ c (Proc.devRef .tc main_v6)).trans (kept8_main_v6 m ρ c)

theorem kept2_main_v33 : W2 m ρ c (Proc.devRef .tc main_v33) = W1 m ρ c (Proc.devRef .tc main_v33) :=
  ((W2_of_ne m ρ c main_v33 (by decide)) : W2 m ρ c (Proc.devRef .tc main_v33) = W1 m ρ c (Proc.devRef .tc main_v33))

theorem kept3_main_v33 : W3 m ρ c (Proc.devRef .tc main_v33) = W1 m ρ c (Proc.devRef .tc main_v33) :=
  ((by show StableHlo.after hostOps1 (W2 m ρ c) (Proc.devRef .tc main_v33) = W2 m ρ c (Proc.devRef .tc main_v33); after_results_simp <;> rfl) : W3 m ρ c (Proc.devRef .tc main_v33) = W2 m ρ c (Proc.devRef .tc main_v33)).trans (kept2_main_v33 m ρ c)

theorem kept4_main_v33 : W4 m ρ c (Proc.devRef .tc main_v33) = W1 m ρ c (Proc.devRef .tc main_v33) :=
  ((W4_of_ne m ρ c main_v33 (by decide)) : W4 m ρ c (Proc.devRef .tc main_v33) = W3 m ρ c (Proc.devRef .tc main_v33)).trans (kept3_main_v33 m ρ c)

theorem kept5_main_v33 : W5 m ρ c (Proc.devRef .tc main_v33) = W1 m ρ c (Proc.devRef .tc main_v33) :=
  ((W5_of_ne m ρ c main_v33 (by decide)) : W5 m ρ c (Proc.devRef .tc main_v33) = W4 m ρ c (Proc.devRef .tc main_v33)).trans (kept4_main_v33 m ρ c)

theorem kept6_main_v33 : W6 m ρ c (Proc.devRef .tc main_v33) = W1 m ρ c (Proc.devRef .tc main_v33) :=
  ((by show StableHlo.after hostOps3 (W5 m ρ c) (Proc.devRef .tc main_v33) = W5 m ρ c (Proc.devRef .tc main_v33); after_results_simp <;> rfl) : W6 m ρ c (Proc.devRef .tc main_v33) = W5 m ρ c (Proc.devRef .tc main_v33)).trans (kept5_main_v33 m ρ c)

theorem kept7_main_v33 : W7 m ρ c (Proc.devRef .tc main_v33) = W1 m ρ c (Proc.devRef .tc main_v33) :=
  ((W7_of_ne m ρ c main_v33 (by decide)) : W7 m ρ c (Proc.devRef .tc main_v33) = W6 m ρ c (Proc.devRef .tc main_v33)).trans (kept6_main_v33 m ρ c)

theorem kept8_main_v33 : W8 m ρ c (Proc.devRef .tc main_v33) = W1 m ρ c (Proc.devRef .tc main_v33) :=
  ((by show StableHlo.after hostOps4 (W7 m ρ c) (Proc.devRef .tc main_v33) = W7 m ρ c (Proc.devRef .tc main_v33); after_results_simp <;> rfl) : W8 m ρ c (Proc.devRef .tc main_v33) = W7 m ρ c (Proc.devRef .tc main_v33)).trans (kept7_main_v33 m ρ c)

theorem kept9_main_v33 : W9 m ρ c (Proc.devRef .tc main_v33) = W1 m ρ c (Proc.devRef .tc main_v33) :=
  ((W9_of_ne m ρ c main_v33 (by decide)) : W9 m ρ c (Proc.devRef .tc main_v33) = W8 m ρ c (Proc.devRef .tc main_v33)).trans (kept8_main_v33 m ρ c)

end Cert.KernelIdeal.Carried

end
-- ==== Proof.MatmulRegion2.lean ====
/-
  The matmul region of layer 2: its output array as one function of its two input arrays.

  The region's grid has 10 points; point t multiplies rows 5000 t … 5000 t + 4999 of the left array (its block t)
  by the whole 128 × 128 right array and writes the product back as block t of the output.  The output's blocks
  tile its 50000 rows, so after the region entry (r, q) of the output array is ∑ k, a (r, k) · b (k, q):
  the product of the two arrays as the region found them.
-/
import proofs.«148847_j51170240364590_1_alg».proof.Proof.Gen.KernelIdeal.Frame
import proofs.«148847_j51170240364590_1_alg».proof.Proof.MatmulBody

set_option maxRecDepth 16384

noncomputable section

namespace Cert.KernelIdeal.MatmulRegion2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's arrays: the left operand, the right operand, the output. -/
theorem arr_left : Pipeline.arrRef spec2 0 = main_v53 := rfl
theorem arr_right : Pipeline.arrRef spec2 1 = main_arg8 := rfl
theorem arr_out : Pipeline.arrRef spec2 2 = main_v54 := rfl

theorem zero_offsets : (![0, 0] : Fin 2 → Nat) = fun _ => 0 := funext fun a => by fin_cases a <;> rfl

/-- The product of a 50000 × 128 array and a 128 × 128 one, entry by entry. -/
def prod (a : S50000x128.Idx → EReal) (b : S128x128.Idx → EReal) : S50000x128.Idx → EReal :=
  fun i => ∑ k : Fin 128, a (ix2 (i 0) k) * b (ix2 k (i 1))

/-- A sum of products of block entries is an entry of the product once each factor is read in its array. -/
theorem sum_blocks (A : S50000x128.Idx → EReal) (B : S128x128.Idx → EReal) (x : S5000x128.Idx → EReal) (w : S128x128.Idx → EReal)
    (j : S5000x128.Idx) (i : S50000x128.Idx) (hx : ∀ k : Fin 128, x (ix2 (j 0) k) = A (ix2 (i 0) k))
    (hw : ∀ k : Fin 128, w (ix2 k (j 1)) = B (ix2 k (i 1))) :
    (∑ k : Fin 128, x (ix2 (j 0) k) * w (ix2 k (j 1))) = prod A B i := by
  unfold prod
  exact Finset.sum_congr rfl fun k _ => by rw [hx k, hw k]

/-- The index maps over the grid: point t takes row block t of the left array and of the output, and the one block
    of the right array. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays. -/
theorem writeback_eq (c : Dev nD) (t : Fin cfg2.N) :
    (dat2 V c).flushed 2 t = ((cfg2.win 2).blk t).view.read (Elt Ideal)
      (prod (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := block_indices t
  funext j
  refine (MatmulBody.body2_apply _ _ j).trans ?_
  show _ = prod (V c (Pipeline.arrRef spec2 0)) (V c (Pipeline.arrRef spec2 1)) (((cfg2.win 2).blk t).view.emb j)
  refine sum_blocks _ _ _ _ j _ (fun k => ?_) (fun k => ?_)
  · show V c (Pipeline.arrRef spec2 0) (((cfg2.win 0).blk t).view.emb (ix2 (j 0) k))
        = V c (Pipeline.arrRef spec2 0) (ix2 ((((cfg2.win 2).blk t).view.emb j) 0) k)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c (Pipeline.arrRef spec2 1) (((cfg2.win 1).blk t).view.emb (ix2 k (j 1)))
        = V c (Pipeline.arrRef spec2 1) (ix2 k ((((cfg2.win 2).blk t).view.emb j) 1))
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point t's block iff each coordinate is in the block's range. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v54).slice (win2_2.rect t)).set ↔ _
  rw [View.set_slice_whole, Rect.mem_set_unit]
  exact Iff.rfl

/-- Row r of the output lies in the block of point r / 5000: the blocks cover the array. -/
theorem blocks_cover (i : S50000x128.Idx) :
    ∃ t : Fin cfg2.N, (cfg2.win 2).flush t = true ∧ i ∈ ((cfg2.win 2).blk t).view.set := by
  have hN : grid2.N = 10 := N_2
  have hi0 : (i 0).val < 50000 := (i 0).isLt
  have hi1 : (i 1).val < 128 := (i 1).isLt
  have ht : (i 0).val / 5000 < cfg2.N := by show (i 0).val / 5000 < grid2.N; omega
  obtain ⟨e0, e1, e2, e3, e4, e5⟩ := block_indices ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- After the region the output array is the product of the two input arrays as the region found them. -/
theorem output_eq (c : Dev nD) :
    (dat2 V c).arrAt 2 cfg2.N = prod (V c (Pipeline.arrRef spec2 0)) (V c (Pipeline.arrRef spec2 1)) :=
  (dat2 V c).arrAt_eq_of_cover 2 _ (fun t _ => writeback_eq V c t) blocks_cover

end Cert.KernelIdeal.MatmulRegion2

end
-- ==== Proof.AffineRegions.lean ====
/-
  The three elementwise regions of the idealized kernel program, each as ONE function of its input arrays.

  Each of the three regions walks a grid of 10 points over a [50000,128] array: point t reads rows
  5000·t … 5000·t + 4999 of the input (all 128 lanes), reads five [1,128] parameter rows whole at every point, and
  writes the same rows of the output. Two of the regions compute, per element, the normalised-and-clamped value

      max( ((x + b) − m) · (g · rsqrt(v + ε)) + β , 0 )

  with b, g, β, m, v read from the parameter rows at the element's lane; the third computes x + b only.
  Because every point's written block is the restriction of one whole-array function to that point's rows, and the
  ten row blocks cover the array, the output array after the region is that function (final1, final3, final5).
-/
import proofs.«148847_j51170240364590_1_alg».proof.Proof.Gen.KernelIdeal.Frame
import Idealize.ShloMosaic.Lib.ValueIdx
import Idealize.ShloMosaic.Lib.Pipeline.Value

noncomputable section

namespace Cert.KernelIdeal.Affine

open Cert.KernelIdeal Cert.KernelIdeal.Gen Idealize.ShloMosaic Idealize.ShloMosaic.TcCoe Idealize.SL.Sem
open Idealize.ShloMosaic.ValueIdx
open Idealize.ShloMosaic.Pipeline (Dat)

/-! ## Shared: the per-element formula, zero offsets, a parameter row broadcast over the rows -/

/-- The normalised-and-clamped value of one element: `max(((x + b) − m) · (g · rsqrt(v + ε)) + β, 0)`, in exactly the
    order of operations of the body, the two literals kept as their words (ε = 0x3727C5AC, zero = 0x00000000). -/
abbrev normClamp (x b g be m v : Ideal .f32) : Ideal .f32 :=
  FloatOps.maximumf
    (FloatOps.addf
      (FloatOps.mulf (FloatOps.subf (FloatOps.addf x b) m)
        (FloatOps.mulf g (FloatOps.rsqrt (FloatOps.addf v (Ideal.ofBits .f32 0x3727C5AC#32)))))
      be)
    (Ideal.ofBits .f32 0x00000000#32)

/-- The offsets `![0, 0]` are the zero offsets. -/
theorem zeroOffsets : (![0, 0] : Fin 2 → Nat) = fun _ => 0 := funext fun a => by fin_cases a <;> rfl

/-- A [1,128] row broadcast to [5000,128], read at row `p`, lane `q`, is the row at lane `q`. -/
theorem bcastRow_apply {α : Type} (x : S1x128.Idx → α) (p : Fin 5000) (q : Fin 128) :
    broadcastTo S5000x128 x broadcasts_S1x128_S5000x128 (ix2 p q) = x (ix2 (0 : Fin 1) q) :=
  broadcastTo_apply x broadcasts_S1x128_S5000x128 (ix2 p q) (ix2 (0 : Fin 1) q) (fun a => by
    match a with
    | ⟨0, _⟩ => rfl
    | ⟨1, _⟩ => rfl)

/-! ## Region 1 -/

/-- The body's stored value at row `p`, lane `q` of a block: the normalised-and-clamped value of the input element and
    the five parameter rows at lane `q` (the rows arrive in the order b, g, v, m, β; the formula names them by role). -/
theorem pay1_apply (x0 : Vec Ideal S5000x128 .f32) (x1 x2 x3 x4 x5 : Vec Ideal S1x128 .f32) (p : Fin 5000) (q : Fin 128) :
    k1_pay1 x0 x1 x2 x5 x4 x3 (ix2 p q)
      = normClamp (x0 (ix2 p q)) (x1 (ix2 (0 : Fin 1) q)) (x2 (ix2 (0 : Fin 1) q)) (x3 (ix2 (0 : Fin 1) q)) (x4 (ix2 (0 : Fin 1) q)) (x5 (ix2 (0 : Fin 1) q)) := by
  unfold k1_pay1
  simp only [shapeCast_self]
  show FloatOps.maximumf (FloatOps.addf (FloatOps.mulf (FloatOps.subf (FloatOps.addf _ _) _) _) _) _ = _
  rw [bcastRow_apply, bcastRow_apply, bcastRow_apply, bcastRow_apply]
  rfl

/-- The whole-array function region 1 computes: element `i` from the input at `i` and the parameter rows at `i`'s lane. -/
abbrev G1 (a0 : S50000x128.Idx → Ideal .f32) (a1 a2 a3 a4 a5 : S1x128.Idx → Ideal .f32) : S50000x128.Idx → Ideal .f32 :=
  fun i => normClamp (a0 i) (a1 (ix2 (0 : Fin 1) (i 1))) (a2 (ix2 (0 : Fin 1) (i 1))) (a3 (ix2 (0 : Fin 1) (i 1))) (a4 (ix2 (0 : Fin 1) (i 1))) (a5 (ix2 (0 : Fin 1) (i 1)))

/-- The block indices, decided over the ten grid points: input and output move together down the rows (block `t` at point
    `t`, lane block 0); every parameter row stays at block (0, 0). -/
theorem blockIndex1 : ∀ t : Fin cfg1.N,
      win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

set_option maxHeartbeats 1000000 in
/-- What point `t` writes back is rows 5000·t … 5000·t + 4999 of that whole-array function: each input block is read where
    the output's block sits (a block's coordinate is block index × block size + the coordinate inside the block). -/
theorem flushed1_eq (V : (c : Dev nD) → (b : Ref sig .tc) → Buf (Elt Ideal) ((c : Thread nD τ).loc b)) (c : Dev nD) (t : Fin cfg1.N) :
    (dat1 (F := Ideal) V c).flushed 6 t = ((cfg1.win 6).blk t).view.read (Elt Ideal)
      (G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero zeroOffsets]
  simp only [View.ld_unit_zero (S := S5000x128) zeroOffsets, View.ld_unit_zero (S := S1x128) zeroOffsets]
  obtain ⟨e00, e01, e60, e61, e10, e11, e20, e21, e30, e31, e40, e41, e50, e51⟩ := blockIndex1 t
  refine funext fun (j : S5000x128.Idx) => ?_
  obtain ⟨p, q, rfl⟩ : ∃ (p : Fin 5000) (q : Fin 128), j = ix2 p q := ⟨j 0, j 1, eq_ix2 j⟩
  refine (pay1_apply (iblk1 V c 0 t) (iblk1 V c 1 t) (iblk1 V c 2 t) (iblk1 V c 3 t) (iblk1 V c 4 t) (iblk1 V c 5 t) p q).trans ?_
  show normClamp (V c (Pipeline.arrRef spec1 0) (((cfg1.win 0).blk t).view.emb (ix2 p q)))
        (V c (Pipeline.arrRef spec1 1) (((cfg1.win 1).blk t).view.emb (ix2 (0 : Fin 1) q)))
        (V c (Pipeline.arrRef spec1 2) (((cfg1.win 2).blk t).view.emb (ix2 (0 : Fin 1) q)))
        (V c (Pipeline.arrRef spec1 3) (((cfg1.win 3).blk t).view.emb (ix2 (0 : Fin 1) q)))
        (V c (Pipeline.arrRef spec1 4) (((cfg1.win 4).blk t).view.emb (ix2 (0 : Fin 1) q)))
        (V c (Pipeline.arrRef spec1 5) (((cfg1.win 5).blk t).view.emb (ix2 (0 : Fin 1) q)))
      = normClamp (V c (Pipeline.arrRef spec1 0) (((cfg1.win 6).blk t).view.emb (ix2 p q)))
        (V c (Pipeline.arrRef spec1 1) (ix2 (0 : Fin 1) ((((cfg1.win 6).blk t).view.emb (ix2 p q)) 1)))
        (V c (Pipeline.arrRef spec1 2) (ix2 (0 : Fin 1) ((((cfg1.win 6).blk t).view.emb (ix2 p q)) 1)))
        (V c (Pipeline.arrRef spec1 3) (ix2 (0 : Fin 1) ((((cfg1.win 6).blk t).view.emb (ix2 p q)) 1)))
        (V c (Pipeline.arrRef spec1 4) (ix2 (0 : Fin 1) ((((cfg1.win 6).blk t).view.emb (ix2 p q)) 1)))
        (V c (Pipeline.arrRef spec1 5) (ix2 (0 : Fin 1) ((((cfg1.win 6).blk t).view.emb (ix2 p q)) 1)))
  have h0 : ((cfg1.win 0).blk t).view.emb (ix2 p q) = ((cfg1.win 6).blk t).view.emb (ix2 p q) := by
    funext a; apply Fin.ext
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * q.val = win1_6.index t (1 : Fin 2) * 128 + 1 * q.val; omega
  have h1 : ((cfg1.win 1).blk t).view.emb (ix2 (0 : Fin 1) q) = ix2 (0 : Fin 1) ((((cfg1.win 6).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_6.index t (1 : Fin 2) * 128 + 1 * q.val; omega
  have h2 : ((cfg1.win 2).blk t).view.emb (ix2 (0 : Fin 1) q) = ix2 (0 : Fin 1) ((((cfg1.win 6).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_6.index t (1 : Fin 2) * 128 + 1 * q.val; omega
  have h3 : ((cfg1.win 3).blk t).view.emb (ix2 (0 : Fin 1) q) = ix2 (0 : Fin 1) ((((cfg1.win 6).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_6.index t (1 : Fin 2) * 128 + 1 * q.val; omega
  have h4 : ((cfg1.win 4).blk t).view.emb (ix2 (0 : Fin 1) q) = ix2 (0 : Fin 1) ((((cfg1.win 6).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  have h5 : ((cfg1.win 5).blk t).view.emb (ix2 (0 : Fin 1) q) = ix2 (0 : Fin 1) ((((cfg1.win 6).blk t).view.emb (ix2 p q)) 1) := by
    funext a; apply Fin.ext
    match a with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega
  rw [h0, h1, h2, h3, h4, h5]
  rfl

/-- An index of the array is in point `t`'s output block iff each coordinate is in the block's range on its axis. -/
theorem mem_rowBlock1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v53).slice (win1_6.rect t)).set ↔ _
  rw [View.set_slice_whole, Rect.mem_set_unit]
  exact Iff.rfl

/-- The ten row blocks cover the array: row `r` is in the block of point `r / 5000`. -/
theorem rowBlocks_cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e00, e01, e60, e61, -⟩ := blockIndex1 t
  have ht : t.val = (i 0).val / 5000 := rfl
  refine ⟨t, flush1_6 t, ?_⟩
  rw [mem_rowBlock1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after region 1: the whole-array function of the region's input arrays as the region finds them. -/
theorem final1 (V : (c : Dev nD) → (b : Ref sig .tc) → Buf (Elt Ideal) ((c : Thread nD τ).loc b)) (c : Dev nD) :
    (dat1 (F := Ideal) V c).arrAt 6 cfg1.N = fun i =>
      normClamp (V c (Pipeline.arrRef spec1 0) i) (V c (Pipeline.arrRef spec1 1) (ix2 (0 : Fin 1) (i 1))) (V c (Pipeline.arrRef spec1 2) (ix2 (0 : Fin 1) (i 1)))
        (V c (Pipeline.arrRef spec1 3) (ix2 (0 : Fin 1) (i 1))) (V c (Pipeline.arrRef spec1 4) (ix2 (0 : Fin 1) (i 1))) (V c (Pipeline.arrRef spec1 5) (ix2 (0 : Fin 1) (i 1))) :=
  (dat1 (F := Ideal) V c).arrAt_eq_of_cover 6 _ (fun t _ => flushed1_eq V c t) rowBlocks_cover1

/-- Which buffer each window's array is. -/
theorem arrRef1_0 : Pipeline.arrRef spec1 0 = main_v47 := rfl
theorem arrRef1_1 : Pipeline.arrRef spec1 1 = main_v48 := rfl
theorem arrRef1_2 : Pipeline.arrRef spec1 2 = main_v49 := rfl
theorem arrRef1_3 : Pipeline.arrRef spec1 3 = main_v50 := rfl
theorem arrRef1_4 : Pipeline.arrRef spec1 4 = main_v51 := rfl
theorem arrRef1_5 : Pipeline.arrRef spec1 5 = main_v52 := rfl
theorem arrRef1_6 : Pipeline.arrRef spec1 6 = main_v53 := rfl

/-! ## Region 3 -/

/-- The body's stored value at row `p`, lane `q` of a block: the normalised-and-clamped value of the input element and
    the five parameter rows at lane `q` (the rows arrive in the order b, g, v, m, β; the formula names them by role). -/
theorem pay3_apply (x0 : Vec Ideal S5000x128 .f32) (x1 x2 x3 x4 x5 : Vec Ideal S1x128 .f32) (p : Fin 5000) (q : Fin 128) :
    k3_pay1 x0 x1 x2 x5 x4 x3 (ix2 p q)
      = normClamp (x0 (ix2 p q)) (x1 (ix2 (0 : Fin 1) q)) (x2 (ix2 (0 : Fin 1) q)) (x3 (ix2 (0 : Fin 1) q)) (x4 (ix2 (0 : Fin 1) q)) (x5 (ix2 (0 : Fin 1) q)) := by
  unfold k3_pay1
  simp only [shapeCast_self]
  show FloatOps.maximumf (FloatOps.addf (FloatOps.mulf (FloatOps.subf (FloatOps.addf _ _) _) _) _) _ = _
  rw [bcastRow_apply, bcastRow_apply, bcastRow_apply, bcastRow_apply]
  rfl

/-- The whole-array function region 3 computes: element `i` from the input at `i` and the parameter rows at `i`'s lane. -/
abbrev G3 (a0 : S50000x128.Idx → Ideal .f32) (a1 a2 a3 a4 a5 : S1x128.Idx → Ideal .f32) : S50000x128.Idx → Ideal .f32 :=
  fun i => normClamp (a0 i) (a1 (ix2 (0 : Fin 1) (i 1))) (a2 (ix2 (0 : Fin 1) (i 1))) (a3 (ix2 (0 : Fin 1) (i 1))) (a4 (ix2 (0 : Fin 1) (i 1))) (a5 (ix2 (0 : Fin 1) (i 1)))

/-- The block indices, decided over the ten grid points: input and output move together down the rows (block `t` at point
    `t`, lane block 0); every parameter row stays at block (0, 0). -/
theorem blockIndex3 : ∀ t : Fin cfg3.N,
      win3_0.index t (0 : Fin 2) = t.val ∧ win3_0.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

set_option maxHeartbeats 1000000 in
/-- What point `t` writes back is rows 5000·t … 5000·t + 4999 of that whole-array function: each input block is read where
    the output's block sits (a block's coordinate is block index × block size + the coordinate inside the block). -/
theorem flushed3_eq (V : (c : Dev nD) → (b : Ref sig .tc) → Buf (Elt Ideal) ((c : Thread nD τ).loc b)) (c : Dev nD) (t : Fin cfg3.N) :
    (dat3 (F := Ideal) V c).flushed 6 t = ((cfg3.win 6).blk t).view.read (Elt Ideal)
      (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero zeroOffsets]
  simp only [View.ld_unit_zero (S := S5000x128) zeroOffsets, View.ld_unit_zero (S := S1x128) zeroOffsets]
  obtain ⟨e00, e01, e60, e61, e10, e11, e20, e21, e30, e31, e40, e41, e50, e51⟩ := blockIndex3 t
  refine funext fun (j : S5000x128.Idx) => ?_
  obtain ⟨p, q, rfl⟩ : ∃ (p : Fin 5000) (q : Fin 128), j = ix2 p q := ⟨j 0, j 1, eq_ix2 j⟩
  refine (pay3_apply (iblk3 V c 0 t) (iblk3 V c 1 t) (iblk3 V c 2 t) (iblk3 V c 3 t) (iblk3 V c 4 t) (iblk3 V c 5 t) p q).trans ?_
  show normClamp (V c (Pipeline.arrRef spec3 0) (((cfg3.win 0).blk t).view.emb (ix2 p q)))
        (V c (Pipeline.arrRef spec3 1) (((cfg3.win 1).blk t).view.emb (ix2 (0 : Fin 1) q)))
        (V c (Pipeline.arrRef spec3 2) (((cfg3.win 2).blk t).view.emb (ix2 (0 : Fin 1) q)))
        (V c (Pipeline.arrRef spec3 3) (((cfg3.win 3).blk t).view.emb (ix2 (0 : Fin 1) q)))
        (V c (Pipeline.arrRef spec3 4) (((cfg3.win 4).blk t).view.emb (ix2 (0 : Fin 1) q)))
        (V c (Pipeline.arrRef spec3 5) (((cfg3.win 5).blk t).view.emb (ix2 (0 : Fin 1) q)))
      = normClamp (V c (Pipeline.arrRef spec3 0) (((cfg3.win 6).blk t).view.emb (ix2 p q)))
        (V c (Pipeline.arrRef spec3 1) (ix2 (0 : Fin 1) ((((cfg3.win 6).blk t).view.emb (ix2 p q)) 1)))
        (V c (Pipeline.arrRef spec3 2) (ix2 (0 : Fin 1) ((((cfg3.win 6).blk t).view.emb (ix2 p q)) 1)))
        (V c (Pipeline.arrRef spec3 3) (ix2 (0 : Fin 1) ((((cfg3.win 6).blk t).view.emb (ix2 p q)) 1)))
        (V c (Pipeline.arrRef spec3 4) (ix2 (0 : Fin 1) ((((cfg3.win 6).blk t).view.emb (ix2 p q)) 1)))
        (V c (Pipeline.arrRef spec3 5) (ix2 (0 : Fin 1) ((((cfg3.win 6).blk t).view.emb (ix2 p q)) 1)))
  have h0 : ((cfg3.win 0).blk t).view.emb (ix2 p q) = ((cfg3.win 6).blk t).view.emb (ix2 p q) := by
    funext a; apply Fin.ext
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * q.val = win3_6.index t (1 : Fin 2) * 128 + 1 * q.val; omega
  have h1 : ((cfg3.win 1).blk t).view.emb (ix2 (0 : Fin 1) q) = ix2 (0 : Fin 1) ((((cfg3.win 6).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_6.index t (1 : Fin 2) * 128 + 1 * q.val; omega
  have h2 : ((cfg3.win 2).blk t).view.emb (ix2 (0 : Fin 1) q) = ix2 (0 : Fin 1) ((((cfg3.win 6).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_6.index t (1 : Fin 2) * 128 + 1 * q.val; omega
  have h3 : ((cfg3.win 3).blk t).view.emb (ix2 (0 : Fin 1) q) = ix2 (0 : Fin 1) ((((cfg3.win 6).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 128 + 1 * q.val = win3_6.index t (1 : Fin 2) * 128 + 1 * q.val; omega
  have h4 : ((cfg3.win 4).blk t).view.emb (ix2 (0 : Fin 1) q) = ix2 (0 : Fin 1) ((((cfg3.win 6).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 128 + 1 * q.val = win3_6.index t (1 : Fin 2) * 128 + 1 * q.val; omega
  have h5 : ((cfg3.win 5).blk t).view.emb (ix2 (0 : Fin 1) q) = ix2 (0 : Fin 1) ((((cfg3.win 6).blk t).view.emb (ix2 p q)) 1) := by
    funext a; apply Fin.ext
    match a with
    | ⟨0, _⟩ => show win3_5.index t (0 : Fin 2) * 1 + 1 * 0 = 0; omega
    | ⟨1, _⟩ => show win3_5.index t (1 : Fin 2) * 128 + 1 * q.val = win3_6.index t (1 : Fin 2) * 128 + 1 * q.val; omega
  rw [h0, h1, h2, h3, h4, h5]
  rfl

/-- An index of the array is in point `t`'s output block iff each coordinate is in the block's range on its axis. -/
theorem mem_rowBlock3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v73).slice (win3_6.rect t)).set ↔ _
  rw [View.set_slice_whole, Rect.mem_set_unit]
  exact Iff.rfl

/-- The ten row blocks cover the array: row `r` is in the block of point `r / 5000`. -/
theorem rowBlocks_cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e00, e01, e60, e61, -⟩ := blockIndex3 t
  have ht : t.val = (i 0).val / 5000 := rfl
  refine ⟨t, flush3_6 t, ?_⟩
  rw [mem_rowBlock3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- THE OUTPUT ARRAY after region 3: the whole-array function of the region's input arrays as the region finds them. -/
theorem final3 (V : (c : Dev nD) → (b : Ref sig .tc) → Buf (Elt Ideal) ((c : Thread nD τ).loc b)) (c : Dev nD) :
    (dat3 (F := Ideal) V c).arrAt 6 cfg3.N = fun i =>
      normClamp (V c (Pipeline.arrRef spec3 0) i) (V c (Pipeline.arrRef spec3 1) (ix2 (0 : Fin 1) (i 1))) (V c (Pipeline.arrRef spec3 2) (ix2 (0 : Fin 1) (i 1)))
        (V c (Pipeline.arrRef spec3 3) (ix2 (0 : Fin 1) (i 1))) (V c (Pipeline.arrRef spec3 4) (ix2 (0 : Fin 1) (i 1))) (V c (Pipeline.arrRef spec3 5) (ix2 (0 : Fin 1) (i 1))) :=
  (dat3 (F := Ideal) V c).arrAt_eq_of_cover 6 _ (fun t _ => flushed3_eq V c t) rowBlocks_cover3

/-- Which buffer each window's array is. -/
theorem arrRef3_0 : Pipeline.arrRef spec3 0 = main_v67 := rfl
theorem arrRef3_1 : Pipeline.arrRef spec3 1 = main_v68 := rfl
theorem arrRef3_2 : Pipeline.arrRef spec3 2 = main_v69 := rfl
theorem arrRef3_3 : Pipeline.arrRef spec3 3 = main_v70 := rfl
theorem arrRef3_4 : Pipeline.arrRef spec3 4 = main_v71 := rfl
theorem arrRef3_5 : Pipeline.arrRef spec3 5 = main_v72 := rfl
theorem arrRef3_6 : Pipeline.arrRef spec3 6 = main_v73 := rfl

/-! ## Region 5 -/

/-- The shifted value of one element: `x + b`. -/
abbrev addBias (x b : Ideal .f32) : Ideal .f32 := FloatOps.addf x b

/-- The body's stored value at row `p`, lane `q` of a block: the input element plus the first parameter row at lane `q`
    (the other four parameter rows are not read). -/
theorem pay5_apply (x0 : Vec Ideal S5000x128 .f32) (x1 : Vec Ideal S1x128 .f32) (p : Fin 5000) (q : Fin 128) :
    k5_pay1 x0 x1 (ix2 p q) = addBias (x0 (ix2 p q)) (x1 (ix2 (0 : Fin 1) q)) := by
  unfold k5_pay1
  simp only [shapeCast_self]
  show FloatOps.addf _ _ = _
  rw [bcastRow_apply]

/-- The whole-array function region 5 computes: element `i` is the input at `i` plus the first parameter row at `i`'s lane. -/
abbrev G5 (a0 : S50000x128.Idx → Ideal .f32) (a1 : S1x128.Idx → Ideal .f32) : S50000x128.Idx → Ideal .f32 :=
  fun i => addBias (a0 i) (a1 (ix2 (0 : Fin 1) (i 1)))

/-- The block indices, decided over the ten grid points: input and output move together down the rows; the parameter row
    stays at block (0, 0). -/
theorem blockIndex5 : ∀ t : Fin cfg5.N,
      win5_0.index t (0 : Fin 2) = t.val ∧ win5_0.index t (1 : Fin 2) = 0
    ∧ win5_6.index t (0 : Fin 2) = t.val ∧ win5_6.index t (1 : Fin 2) = 0
    ∧ win5_1.index t (0 : Fin 2) = 0 ∧ win5_1.index t (1 : Fin 2) = 0 :=
  (by decide +kernel : ∀ t : Fin grid5.N, _)

set_option maxHeartbeats 1000000 in
/-- What point `t` writes back is rows 5000·t … 5000·t + 4999 of that whole-array function. -/
theorem flushed5_eq (V : (c : Dev nD) → (b : Ref sig .tc) → Buf (Elt Ideal) ((c : Thread nD τ).loc b)) (c : Dev nD) (t : Fin cfg5.N) :
    (dat5 (F := Ideal) V c).flushed 6 t = ((cfg5.win 6).blk t).view.read (Elt Ideal)
      (G5 (V c (Pipeline.arrRef spec5 0)) (V c (Pipeline.arrRef spec5 1))) := by
  show (cfg5.win 6).cut (grid5.coords t) ((dat5 V c).after 6 t) = _
  rw [after5_6]
  unfold out5_6
  rw [View.canon_unit_zero zeroOffsets]
  simp only [View.ld_unit_zero (S := S5000x128) zeroOffsets, View.ld_unit_zero (S := S1x128) zeroOffsets]
  obtain ⟨e00, e01, e60, e61, e10, e11⟩ := blockIndex5 t
  refine funext fun (j : S5000x128.Idx) => ?_
  obtain ⟨p, q, rfl⟩ : ∃ (p : Fin 5000) (q : Fin 128), j = ix2 p q := ⟨j 0, j 1, eq_ix2 j⟩
  refine (pay5_apply (iblk5 V c 0 t) (iblk5 V c 1 t) p q).trans ?_
  show addBias (V c (Pipeline.arrRef spec5 0) (((cfg5.win 0).blk t).view.emb (ix2 p q)))
        (V c (Pipeline.arrRef spec5 1) (((cfg5.win 1).blk t).view.emb (ix2 (0 : Fin 1) q)))
      = addBias (V c (Pipeline.arrRef spec5 0) (((cfg5.win 6).blk t).view.emb (ix2 p q)))
        (V c (Pipeline.arrRef spec5 1) (ix2 (0 : Fin 1) ((((cfg5.win 6).blk t).view.emb (ix2 p q)) 1)))
  have h0 : ((cfg5.win 0).blk t).view.emb (ix2 p q) = ((cfg5.win 6).blk t).view.emb (ix2 p q) := by
    funext a; apply Fin.ext
    match a with
    | ⟨0, _⟩ => show win5_0.index t (0 : Fin 2) * 5000 + 1 * p.val = win5_6.index t (0 : Fin 2) * 5000 + 1 * p.val; omega
    | ⟨1, _⟩ => show win5_0.index t (1 : Fin 2) * 128 + 1 * q.val = win5_6.index t (1 : Fin 2) * 128 + 1 * q.val; omega
  have h1 : ((cfg5.win 1).blk t).view.emb (ix2 (0 : Fin 1) q) = ix2 (0 : Fin 1) ((((cfg5.win 6).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_6.index t (1 : Fin 2) * 128 + 1 * q.val; omega
  rw [h0, h1]
  rfl

/-- An index of the array is in point `t`'s output block iff each coordinate is in the block's range on its axis. -/
theorem mem_rowBlock5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v101).slice (win5_6.rect t)).set ↔ _
  rw [View.set_slice_whole, Rect.mem_set_unit]
  exact Iff.rfl

/-- The ten row blocks cover the array: row `r` is in the block of point `r / 5000`. -/
theorem rowBlocks_cover5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e00, e01, e60, e61, -⟩ := blockIndex5 t
  have ht : t.val = (i 0).val / 5000 := rfl
  refine ⟨t, flush5_6 t, ?_⟩
  rw [mem_rowBlock5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- THE OUTPUT ARRAY after region 5: the input plus the first parameter row broadcast over the rows. -/
theorem final5 (V : (c : Dev nD) → (b : Ref sig .tc) → Buf (Elt Ideal) ((c : Thread nD τ).loc b)) (c : Dev nD) :
    (dat5 (F := Ideal) V c).arrAt 6 cfg5.N = fun i =>
      addBias (V c (Pipeline.arrRef spec5 0) i) (V c (Pipeline.arrRef spec5 1) (ix2 (0 : Fin 1) (i 1))) :=
  (dat5 (F := Ideal) V c).arrAt_eq_of_cover 6 _ (fun t _ => flushed5_eq V c t) rowBlocks_cover5

/-- Which buffer each window the body reads or writes is. -/
theorem arrRef5_0 : Pipeline.arrRef spec5 0 = main_v93 := rfl
theorem arrRef5_1 : Pipeline.arrRef spec5 1 = main_v96 := rfl
theorem arrRef5_6 : Pipeline.arrRef spec5 6 = main_v101 := rfl

end Cert.KernelIdeal.Affine

end
-- ==== Proof.Hidden.lean ====
/-
  The two hidden layers' activations, stage by stage against the reference.

  Layer 1's aggregate passes the normalisation region: bias, batch normalisation with the stored mean and variance,
  and the clamp at zero, entry by entry; the reference applies the same arithmetic through broadcasts of the five
  parameter vectors.  Layer 2 repeats layer 1 on these activations: the product with W2 in a region against the
  reference's dot_general, the shared gather, scaling and scatter-add on the host, and the normalisation region.
-/
import proofs.«148847_j51170240364590_1_alg».proof.Proof.Gen.KernelIdeal.Frame
import proofs.«148847_j51170240364590_1_alg».proof.Proof.Gen.ReferenceIdeal.Read
import proofs.«148847_j51170240364590_1_alg».proof.Proof.Layer1
import proofs.«148847_j51170240364590_1_alg».proof.Proof.Carried
import proofs.«148847_j51170240364590_1_alg».proof.Proof.MatmulRegion2
import proofs.«148847_j51170240364590_1_alg».proof.Proof.AffineRegions

set_option maxRecDepth 16384

noncomputable section

namespace Cert.KernelIdeal.Hidden

open Idealize.ShloMosaic Idealize.ShloMosaic.TcCoe Idealize.ShloMosaic.ValueIdx Idealize.SL.Sem
open Cert.KernelIdeal Cert.KernelIdeal.Gen
open Cert.ReferenceIdeal.Read
open Cert.KernelIdeal.Layer1 Cert.KernelIdeal.Carried

variable (m : (ℓ : Loc nD τ sig) → Buf (Elt Ideal) ℓ) (ρ : Dev nD → PrngReg) (c : Dev nD)

/-- A vector of 128 entries reshaped to one row: entry (0, q) of the row is entry q of the vector. -/
theorem row_of_vector (x : S128.Idx → EReal) (q : Fin 128) :
    shapeCast S1x128 x shapeCasts_S128_S1x128 (ix2 (0 : Fin 1) q) = x (ix1 q) :=
  shapeCast_apply x shapeCasts_S128_S1x128 (ix2 (0 : Fin 1) q) (ix1 q)
    (by rewrite [Shape.rowMajor_val_one, Shape.rowMajor_val_two]; show q.val = 0 * 128 + q.val; omega)

/-- The normalised, clamped value spelt with the host's reciprocal square root: on the extended reals the kernel's
    and the host's reciprocal square roots are one function. -/
theorem normClamp_host (a b g be mu v : Ideal .f32) :
    Affine.normClamp a b g be mu v
      = FloatOps.maximumf (FloatOps.addf (FloatOps.mulf (FloatOps.subf (FloatOps.addf a b) mu)
          (FloatOps.mulf g (FloatOps.hostUnary .rsqrt (FloatOps.addf v (FloatOps.ofBits .f32 0x3727C5AC#32))))) be)
          (FloatOps.ofBits .f32 0x00000000#32) := rfl

/-- Parameter row 1 of layer 1's normalisation: argument 3 laid out as one row. -/
theorem row1_0 (q : Fin 128) :
    W3 m ρ c (Proc.devRef .tc main_v48) (ix2 (0 : Fin 1) q) = m ((c : Thread nD τ).loc main_arg3) (ix1 q) := by
  have h : W3 m ρ c (Proc.devRef .tc main_v48) = shapeCast S1x128 (m ((c : Thread nD τ).loc main_arg3)) shapeCasts_S128_S1x128 := by
    show StableHlo.after hostOps1 (W2 m ρ c) (Proc.devRef .tc main_v48) = _
    after_results
    rw [kept2_main_arg3 m ρ c, entry_arg3 m ρ c]
    rfl
  rw [h]
  exact row_of_vector _ q

/-- Parameter row 2 of layer 1's normalisation: argument 4 laid out as one row. -/
theorem row1_1 (q : Fin 128) :
    W3 m ρ c (Proc.devRef .tc main_v49) (ix2 (0 : Fin 1) q) = m ((c : Thread nD τ).loc main_arg4) (ix1 q) := by
  have h : W3 m ρ c (Proc.devRef .tc main_v49) = shapeCast S1x128 (m ((c : Thread nD τ).loc main_arg4)) shapeCasts_S128_S1x128 := by
    show StableHlo.after hostOps1 (W2 m ρ c) (Proc.devRef .tc main_v49) = _
    after_results
    rw [kept2_main_arg4 m ρ c, entry_arg4 m ρ c]
    rfl
  rw [h]
  exact row_of_vector _ q

/-- Parameter row 3 of layer 1's normalisation: argument 5 laid out as one row. -/
theorem row1_2 (q : Fin 128) :
    W3 m ρ c (Proc.devRef .tc main_v50) (ix2 (0 : Fin 1) q) = m ((c : Thread nD τ).loc main_arg5) (ix1 q) := by
  have h : W3 m ρ c (Proc.devRef .tc main_v50) = shapeCast S1x128 (m ((c : Thread nD τ).loc main_arg5)) shapeCasts_S128_S1x128 := by
    show StableHlo.after hostOps1 (W2 m ρ c) (Proc.devRef .tc main_v50) = _
    after_results
    rw [kept2_main_arg5 m ρ c, entry_arg5 m ρ c]
    rfl
  rw [h]
  exact row_of_vector _ q

/-- Parameter row 4 of layer 1's normalisation: argument 6 laid out as one row. -/
theorem row1_3 (q : Fin 128) :
    W3 m ρ c (Proc.devRef .tc main_v51) (ix2 (0 : Fin 1) q) = m ((c : Thread nD τ).loc main_arg6) (ix1 q) := by
  have h : W3 m ρ c (Proc.devRef .tc main_v51) = shapeCast S1x128 (m ((c : Thread nD τ).loc main_arg6)) shapeCasts_S128_S1x128 := by
    show StableHlo.after hostOps1 (W2 m ρ c) (Proc.devRef .tc main_v51) = _
    after_results
    rw [kept2_main_arg6 m ρ c, entry_arg6 m ρ c]
    rfl
  rw [h]
  exact row_of_vector _ q

/-- Parameter row 5 of layer 1's normalisation: argument 7 laid out as one row. -/
theorem row1_4 (q : Fin 128) :
    W3 m ρ c (Proc.devRef .tc main_v52) (ix2 (0 : Fin 1) q) = m ((c : Thread nD τ).loc main_arg7) (ix1 q) := by
  have h : W3 m ρ c (Proc.devRef .tc main_v52) = shapeCast S1x128 (m ((c : Thread nD τ).loc main_arg7)) shapeCasts_S128_S1x128 := by
    show StableHlo.after hostOps1 (W2 m ρ c) (Proc.devRef .tc main_v52) = _
    after_results
    rw [kept2_main_arg7 m ρ c, entry_arg7 m ρ c]
    rfl
  rw [h]
  exact row_of_vector _ q

set_option maxHeartbeats 8000000 in
/-- After layer 1's normalisation region its output holds the reference's normalised, clamped activations:
    entry (r, q) is max ((a (r, q) + b q − mean q) · (γ q · rsqrt (var q + ε)) + β q, 0) on both sides, the kernel
    reading the five parameters from rows, the reference from broadcasts. -/
theorem hidden1 : W4 m ρ c (Proc.devRef .tc main_v53) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ?_
  rw [Affine.final1]
  funext i
  have hA : V3 m ρ c (Pipeline.arrRef spec1 0) = val_main_v47 (F := Ideal) (m ((c : Thread nD τ).loc main_arg0)) (m ((c : Thread nD τ).loc main_arg1)) (m ((c : Thread nD τ).loc main_arg2)) := Layer1.aggregate1 m ρ c
  have h1 : V3 m ρ c (Pipeline.arrRef spec1 1) (ix2 (0 : Fin 1) (i 1)) = m ((c : Thread nD τ).loc main_arg3) (ix1 (i 1)) := row1_0 m ρ c (i 1)
  have h2 : V3 m ρ c (Pipeline.arrRef spec1 2) (ix2 (0 : Fin 1) (i 1)) = m ((c : Thread nD τ).loc main_arg4) (ix1 (i 1)) := row1_1 m ρ c (i 1)
  have h3 : V3 m ρ c (Pipeline.arrRef spec1 3) (ix2 (0 : Fin 1) (i 1)) = m ((c : Thread nD τ).loc main_arg5) (ix1 (i 1)) := row1_2 m ρ c (i 1)
  have h4 : V3 m ρ c (Pipeline.arrRef spec1 4) (ix2 (0 : Fin 1) (i 1)) = m ((c : Thread nD τ).loc main_arg6) (ix1 (i 1)) := row1_3 m ρ c (i 1)
  have h5 : V3 m ρ c (Pipeline.arrRef spec1 5) (ix2 (0 : Fin 1) (i 1)) = m ((c : Thread nD τ).loc main_arg7) (ix1 (i 1)) := row1_4 m ρ c (i 1)
  rw [hA, h1, h2, h3, h4, h5]
  rw [val_main_v64_apply, val_main_v63_apply, val_main_v60_apply, val_main_v53_apply, val_main_v50_apply, val_main_v49_apply, val_main_v48_apply, val_main_v52_apply, val_main_v51_apply, val_main_v59_apply, val_main_v58_apply, val_main_v57_apply, val_main_v56_apply, val_main_v55_apply, val_main_v54_apply, val_main_cst_10_apply, val_main_v62_apply, val_main_v61_apply, val_main_call0_v0_apply, val_main_call0_cst_apply]
  have eb : idx_main_v48 (idx_main_v49 i) = ix1 (i 1) := funext fun a => Fin.ext (by match a with | ⟨0, _⟩ => rfl)
  have em : idx_main_v51 (idx_main_v52 i) = ix1 (i 1) := funext fun a => Fin.ext (by match a with | ⟨0, _⟩ => rfl)
  have eg : idx_main_v58 (idx_main_v59 i) = ix1 (i 1) := funext fun a => Fin.ext (by match a with | ⟨0, _⟩ => rfl)
  have ebe : idx_main_v61 (idx_main_v62 i) = ix1 (i 1) := funext fun a => Fin.ext (by match a with | ⟨0, _⟩ => rfl)
  rw [eb, em, eg, ebe]
  exact normClamp_host _ _ _ _ _ _

set_option maxHeartbeats 4000000 in
/-- After the second matmul region its output holds h1 · W2, the reference's dot_general. -/
theorem product2 : W5 m ρ c (Proc.devRef .tc main_v54) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W5_arr m ρ c 2).trans ?_
  rw [MatmulRegion2.output_eq]
  funext i
  rw [val_main_v65_apply]
  unfold MatmulRegion2.prod
  refine Finset.sum_congr rfl fun k _ => ?_
  have h0 : V4 m ρ c (Pipeline.arrRef spec2 0) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := hidden1 m ρ c
  have h2 : V4 m ρ c (Pipeline.arrRef spec2 1) = m ((c : Thread nD τ).loc main_arg8) := (kept4_main_arg8 m ρ c).trans (entry_arg8 m ρ c)
  rw [h0, h2]
  have el : (ix2 (i 0) k : S50000x128.Idx) = lidx_main_v65 i k := funext fun a => Fin.ext (by
    match a with
    | ⟨0, _⟩ => rfl
    | ⟨1, _⟩ => rfl)
  have er : (ix2 k (i 1) : S128x128.Idx) = ridx_main_v65 i k := funext fun a => Fin.ext (by
    match a with
    | ⟨0, _⟩ => rfl
    | ⟨1, _⟩ => rfl)
  rw [el, er]

set_option maxHeartbeats 4000000 in
/-- After the host stretch that follows, the aggregation of layer 2 holds the reference's scatter-add. -/
theorem aggregate2 : W6 m ρ c (Proc.devRef .tc main_v67) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W5 m ρ c) (Proc.devRef .tc main_v67) = _
  after_results
  rw [product2 m ρ c, kept5_main_v3 m ρ c, kept5_main_v6 m ρ c, kept5_main_v33 m ρ c,
    entry_sources m ρ c, entry_targets m ρ c, entry_weights m ρ c]
  rfl

/-- Parameter row 1 of layer 2's normalisation: argument 9 laid out as one row. -/
theorem row2_0 (q : Fin 128) :
    W6 m ρ c (Proc.devRef .tc main_v68) (ix2 (0 : Fin 1) q) = m ((c : Thread nD τ).loc main_arg9) (ix1 q) := by
  have h : W6 m ρ c (Proc.devRef .tc main_v68) = shapeCast S1x128 (m ((c : Thread nD τ).loc main_arg9)) shapeCasts_S128_S1x128 := by
    show StableHlo.after hostOps3 (W5 m ρ c) (Proc.devRef .tc main_v68) = _
    after_results
    rw [kept5_main_arg9 m ρ c, entry_arg9 m ρ c]
    rfl
  rw [h]
  exact row_of_vector _ q

/-- Parameter row 2 of layer 2's normalisation: argument 10 laid out as one row. -/
theorem row2_1 (q : Fin 128) :
    W6 m ρ c (Proc.devRef .tc main_v69) (ix2 (0 : Fin 1) q) = m ((c : Thread nD τ).loc main_arg10) (ix1 q) := by
  have h : W6 m ρ c (Proc.devRef .tc main_v69) = shapeCast S1x128 (m ((c : Thread nD τ).loc main_arg10)) shapeCasts_S128_S1x128 := by
    show StableHlo.after hostOps3 (W5 m ρ c) (Proc.devRef .tc main_v69) = _
    after_results
    rw [kept5_main_arg10 m ρ c, entry_arg10 m ρ c]
    rfl
  rw [h]
  exact row_of_vector _ q

/-- Parameter row 3 of layer 2's normalisation: argument 11 laid out as one row. -/
theorem row2_2 (q : Fin 128) :
    W6 m ρ c (Proc.devRef .tc main_v70) (ix2 (0 : Fin 1) q) = m ((c : Thread nD τ).loc main_arg11) (ix1 q) := by
  have h : W6 m ρ c (Proc.devRef .tc main_v70) = shapeCast S1x128 (m ((c : Thread nD τ).loc main_arg11)) shapeCasts_S128_S1x128 := by
    show StableHlo.after hostOps3 (W5 m ρ c) (Proc.devRef .tc main_v70) = _
    after_results
    rw [kept5_main_arg11 m ρ c, entry_arg11 m ρ c]
    rfl
  rw [h]
  exact row_of_vector _ q

/-- Parameter row 4 of layer 2's normalisation: argument 12 laid out as one row. -/
theorem row2_3 (q : Fin 128) :
    W6 m ρ c (Proc.devRef .tc main_v71) (ix2 (0 : Fin 1) q) = m ((c : Thread nD τ).loc main_arg12) (ix1 q) := by
  have h : W6 m ρ c (Proc.devRef .tc main_v71) = shapeCast S1x128 (m ((c : Thread nD τ).loc main_arg12)) shapeCasts_S128_S1x128 := by
    show StableHlo.after hostOps3 (W5 m ρ c) (Proc.devRef .tc main_v71) = _
    after_results
    rw [kept5_main_arg12 m ρ c, entry_arg12 m ρ c]
    rfl
  rw [h]
  exact row_of_vector _ q

/-- Parameter row 5 of layer 2's normalisation: argument 13 laid out as one row. -/
theorem row2_4 (q : Fin 128) :
    W6 m ρ c (Proc.devRef .tc main_v72) (ix2 (0 : Fin 1) q) = m ((c : Thread nD τ).loc main_arg13) (ix1 q) := by
  have h : W6 m ρ c (Proc.devRef .tc main_v72) = shapeCast S1x128 (m ((c : Thread nD τ).loc main_arg13)) shapeCasts_S128_S1x128 := by
    show StableHlo.after hostOps3 (W5 m ρ c) (Proc.devRef .tc main_v72) = _
    after_results
    rw [kept5_main_arg13 m ρ c, entry_arg13 m ρ c]
    rfl
  rw [h]
  exact row_of_vector _ q

set_option maxHeartbeats 8000000 in
/-- After layer 2's normalisation region its output holds the reference's normalised, clamped activations:
    entry (r, q) is max ((a (r, q) + b q − mean q) · (γ q · rsqrt (var q + ε)) + β q, 0) on both sides, the kernel
    reading the five parameters from rows, the reference from broadcasts. -/
theorem hidden2 : W7 m ρ c (Proc.devRef .tc main_v73) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W7_arr m ρ c 6).trans ?_
  rw [Affine.final3]
  funext i
  have hA : V6 m ρ c (Pipeline.arrRef spec3 0) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := aggregate2 m ρ c
  have h1 : V6 m ρ c (Pipeline.arrRef spec3 1) (ix2 (0 : Fin 1) (i 1)) = m ((c : Thread nD τ).loc main_arg9) (ix1 (i 1)) := row2_0 m ρ c (i 1)
  have h2 : V6 m ρ c (Pipeline.arrRef spec3 2) (ix2 (0 : Fin 1) (i 1)) = m ((c : Thread nD τ).loc main_arg10) (ix1 (i 1)) := row2_1 m ρ c (i 1)
  have h3 : V6 m ρ c (Pipeline.arrRef spec3 3) (ix2 (0 : Fin 1) (i 1)) = m ((c : Thread nD τ).loc main_arg11) (ix1 (i 1)) := row2_2 m ρ c (i 1)
  have h4 : V6 m ρ c (Pipeline.arrRef spec3 4) (ix2 (0 : Fin 1) (i 1)) = m ((c : Thread nD τ).loc main_arg12) (ix1 (i 1)) := row2_3 m ρ c (i 1)
  have h5 : V6 m ρ c (Pipeline.arrRef spec3 5) (ix2 (0 : Fin 1) (i 1)) = m ((c : Thread nD τ).loc main_arg13) (ix1 (i 1)) := row2_4 m ρ c (i 1)
  rw [hA, h1, h2, h3, h4, h5]
  rw [val_main_v95_apply, val_main_v94_apply, val_main_v91_apply, val_main_v84_apply, val_main_v81_apply, val_main_v80_apply, val_main_v79_apply, val_main_v83_apply, val_main_v82_apply, val_main_v90_apply, val_main_v89_apply, val_main_v88_apply, val_main_v87_apply, val_main_v86_apply, val_main_v85_apply, val_main_cst_14_apply, val_main_v93_apply, val_main_v92_apply, val_main_call1_v0_apply, val_main_call1_cst_apply]
  have eb : idx_main_v79 (idx_main_v80 i) = ix1 (i 1) := funext fun a => Fin.ext (by match a with | ⟨0, _⟩ => rfl)
  have em : idx_main_v82 (idx_main_v83 i) = ix1 (i 1) := funext fun a => Fin.ext (by match a with | ⟨0, _⟩ => rfl)
  have eg : idx_main_v89 (idx_main_v90 i) = ix1 (i 1) := funext fun a => Fin.ext (by match a with | ⟨0, _⟩ => rfl)
  have ebe : idx_main_v92 (idx_main_v93 i) = ix1 (i 1) := funext fun a => Fin.ext (by match a with | ⟨0, _⟩ => rfl)
  rw [eb, em, eg, ebe]
  exact normClamp_host _ _ _ _ _ _

end Cert.KernelIdeal.Hidden

end
-- ==== Proof.MatmulRegion4.lean ====
/-
  The matmul region of layer 3: its output array as one function of its two input arrays.

  The region's grid has 10 points; point t multiplies rows 5000 t … 5000 t + 4999 of the left array (its block t)
  by the whole 128 × 128 right array and writes the product back as block t of the output.  The output's blocks
  tile its 50000 rows, so after the region entry (r, q) of the output array is ∑ k, a (r, k) · b (k, q):
  the product of the two arrays as the region found them.
-/
import proofs.«148847_j51170240364590_1_alg».proof.Proof.Gen.KernelIdeal.Frame
import proofs.«148847_j51170240364590_1_alg».proof.Proof.MatmulBody

set_option maxRecDepth 16384

noncomputable section

namespace Cert.KernelIdeal.MatmulRegion4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's arrays: the left operand, the right operand, the output. -/
theorem arr_left : Pipeline.arrRef spec4 0 = main_v73 := rfl
theorem arr_right : Pipeline.arrRef spec4 1 = main_v76 := rfl
theorem arr_out : Pipeline.arrRef spec4 2 = main_v80 := rfl

theorem zero_offsets : (![0, 0] : Fin 2 → Nat) = fun _ => 0 := funext fun a => by fin_cases a <;> rfl

/-- The product of a 50000 × 128 array and a 128 × 128 one, entry by entry. -/
def prod (a : S50000x128.Idx → EReal) (b : S128x128.Idx → EReal) : S50000x128.Idx → EReal :=
  fun i => ∑ k : Fin 128, a (ix2 (i 0) k) * b (ix2 k (i 1))

/-- A sum of products of block entries is an entry of the product once each factor is read in its array. -/
theorem sum_blocks (A : S50000x128.Idx → EReal) (B : S128x128.Idx → EReal) (x : S5000x128.Idx → EReal) (w : S128x128.Idx → EReal)
    (j : S5000x128.Idx) (i : S50000x128.Idx) (hx : ∀ k : Fin 128, x (ix2 (j 0) k) = A (ix2 (i 0) k))
    (hw : ∀ k : Fin 128, w (ix2 k (j 1)) = B (ix2 k (i 1))) :
    (∑ k : Fin 128, x (ix2 (j 0) k) * w (ix2 k (j 1))) = prod A B i := by
  unfold prod
  exact Finset.sum_congr rfl fun k _ => by rw [hx k, hw k]

/-- The index maps over the grid: point t takes row block t of the left array and of the output, and the one block
    of the right array. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 4000000 in
/-- What point t writes back is block t of the product of the two arrays. -/
theorem writeback_eq (c : Dev nD) (t : Fin cfg4.N) :
    (dat4 V c).flushed 2 t = ((cfg4.win 2).blk t).view.read (Elt Ideal)
      (prod (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  obtain ⟨e0, e1, e2, e3, e4, e5⟩ := block_indices t
  funext j
  refine (MatmulBody.body4_apply _ _ j).trans ?_
  show _ = prod (V c (Pipeline.arrRef spec4 0)) (V c (Pipeline.arrRef spec4 1)) (((cfg4.win 2).blk t).view.emb j)
  refine sum_blocks _ _ _ _ j _ (fun k => ?_) (fun k => ?_)
  · show V c (Pipeline.arrRef spec4 0) (((cfg4.win 0).blk t).view.emb (ix2 (j 0) k))
        = V c (Pipeline.arrRef spec4 0) (ix2 ((((cfg4.win 2).blk t).view.emb j) 0) k)
    refine congrArg _ (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · show V c (Pipeline.arrRef spec4 1) (((cfg4.win 1).blk t).view.emb (ix2 k (j 1)))
        = V c (Pipeline.arrRef spec4 1) (ix2 k ((((cfg4.win 2).blk t).view.emb j) 1))
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega

/-- An index of the output array is in point t's block iff each coordinate is in the block's range. -/
theorem mem_block (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v80).slice (win4_2.rect t)).set ↔ _
  rw [View.set_slice_whole, Rect.mem_set_unit]
  exact Iff.rfl

/-- Row r of the output lies in the block of point r / 5000: the blocks cover the array. -/
theorem blocks_cover (i : S50000x128.Idx) :
    ∃ t : Fin cfg4.N, (cfg4.win 2).flush t = true ∧ i ∈ ((cfg4.win 2).blk t).view.set := by
  have hN : grid4.N = 10 := N_4
  have hi0 : (i 0).val < 50000 := (i 0).isLt
  have hi1 : (i 1).val < 128 := (i 1).isLt
  have ht : (i 0).val / 5000 < cfg4.N := by show (i 0).val / 5000 < grid4.N; omega
  obtain ⟨e0, e1, e2, e3, e4, e5⟩ := block_indices ⟨(i 0).val / 5000, ht⟩
  refine ⟨⟨(i 0).val / 5000, ht⟩, flush4_2 _, ?_⟩
  rw [mem_block]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    rw [e5]; omega

/-- After the region the output array is the product of the two input arrays as the region found them. -/
theorem output_eq (c : Dev nD) :
    (dat4 V c).arrAt 2 cfg4.N = prod (V c (Pipeline.arrRef spec4 0)) (V c (Pipeline.arrRef spec4 1)) :=
  (dat4 V c).arrAt_eq_of_cover 2 _ (fun t _ => writeback_eq V c t) blocks_cover

end Cert.KernelIdeal.MatmulRegion4

end
-- ==== Proof.LibGatherRows.lean ====
/-
  Two reads of a row gather at an index.

  Taking rows of a table by a column of start indices: for a flat table x of N entries and start indices
  idx of shape [E, 1], entry e of the result is x at idx[e, 0] read as a signed integer and clamped into
  [0, N - 1]; for a table of N rows and K columns the result's entry (e, k) is the table's entry at that
  clamped row and column k.  Both are the general gather's operand index worked out for these dimension
  numbers (one collapsed axis, the start index naming axis 0, the index vector on axis 1).
-/
import Idealize.ShloMosaic.Lib.ValueIdx

namespace Cert.HarmonicLib

open Idealize.ShloMosaic Idealize.ShloMosaic.ValueIdx

variable {α : Type}

/-- The dimension numbers of x[idx] for a flat table x : [N] and a column idx : [E, 1] of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather from a flat table: the table at the clamped start index of e. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 ⟨min (idx (ix2 (y 0) (0 : Fin 1))).toInt.toNat (N - 1), by omega⟩) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The dimension numbers of x[idx] for a table x : [N, K] of rows and a column idx : [E, 1] of start indices. -/
abbrev rowDims (N K E : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Entry (e, k) of the gather of rows: the table at the clamped start index of e and column k. -/
theorem gather_row_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (y : (⟨2, ![E, K]⟩ : Shape).Idx) :
    Host.gather (rowDims N K E wf) x idx y
      = x (ix2 ⟨min (idx (ix2 (y 0) (0 : Fin 1))).toInt.toNat (N - 1), by omega⟩ (y 1)) := by
  unfold Host.gather
  congr 1
  funext a
  refine Fin.ext ?_
  show (rowDims N K E wf).start y idx a + (rowDims N K E wf).batchCoord y a + (rowDims N K E wf).offCoord y a = _
  rw [GatherDims.batchCoord_eq_zero _ _ _ List.not_mem_nil]
  have ha : a = 0 ∨ a = 1 := by
    revert a; show ∀ a : Fin 2, a = 0 ∨ a = 1; decide
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K E wf).startIndexMap from List.mem_singleton.mpr rfl)]
    have hsi : (rowDims N K E wf).siIdx y ⟨List.idxOf (0 : Fin 2) (rowDims N K E wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  · have hstart : (rowDims N K E wf).start y idx (1 : Fin 2) = 0 := by
      unfold GatherDims.start
      rw [dif_neg (show (1 : Fin 2) ∉ [(0 : Fin 2)] from by decide)]
    have hk : (1 : Fin 2) ∈ (rowDims N K E wf).sKept :=
      (GatherDims.mem_sKept _ _).mpr ⟨(show (1 : Fin 2) ∉ [(0 : Fin 2)] from by decide), List.not_mem_nil⟩
    show (rowDims N K E wf).start y idx (1 : Fin 2) + 0 + (rowDims N K E wf).offCoord y (1 : Fin 2) = _
    rw [hstart]
    unfold GatherDims.offCoord
    rw [dif_pos hk]
    simp only [Nat.zero_add]
    rfl

end Cert.HarmonicLib
-- ==== Proof.LibScatterRows.lean ====
/-
  SCATTERS OF ROWS, READ INDEX BY INDEX.

  A scatter takes an operand array, an array of scatter indices and an array of updates; every update element
  has a LANDING INDEX in the operand: on each operand axis, a start read off the scatter indices as a SIGNED
  integer and NOT clamped, plus the element's coordinate inside its window. An update whose landing index
  leaves the operand on some axis is dropped. This file computes the landing index for three families of
  dimension numbers and reads the scatter's result at one index.

  1. ROWS INTO A MATRIX. Operand `x : [N, K]`, scatter indices `idx : [E, 1]`, updates `upd : [E, K]`; the update's
     axis 1 is the window axis, the operand's axis 0 is the scattered (and inserted) axis, the index vector is
     the indices' axis 1. Update element `(e, k)` lands at `(idx[e, 0], k)`, and is dropped when `idx[e, 0]` is
     outside `[0, N)` (`resultIdx?_row`). So the accumulating scatter over the extended reals is, at `(r, k)`,

         x[r, k] + ∑ e, (if idx[e, 0] = r then upd[e, k] else 0)

     (`hostScatterAdd_row_apply`): column `k` of the result only sees column `k` of the operand and of the updates.
     In particular column 0 of the `K`-wide scatter is the 1-wide scatter of the two columns 0
     (`hostScatterAdd_row_col0`).

  2. A SCATTER THAT WRITES ("set": the body returns the update) whose landing indices are all inside the operand
     and pairwise distinct reads, at the landing index of update element `j`, that element
     (`scatter_set_apply`): among the update elements taken in row-major order only `j` itself touches that index.

  3. PADDING BY ONE SCATTER INDEX. A column `upd : [M, 1]` written into `x : [M, C]` at the column the single
     scatter index names (`padColDims`: both update axes are window axes, the operand's axis 1 is scattered):
     element `(k, 0)` lands at `(k, c)`, so the result at `(k, c)` is `upd[k, 0]` (`padCol_set_apply`; at the
     zero index, `padCol_set_zero`). And a single entry `upd : [1]` written into `x : [M]` at the position the
     single scatter index names (`padVecDims`): the result there is `upd[0]` (`padVec_set_apply`,
     `padVec_set_zero`).

  The conditions on each family's dimension numbers (`ScatterDims.WF`) are an argument `wf`: they are decided on
  the literal shapes of a program.
-/
import Idealize.ShloMosaic.Lib.ValueIdx
import Idealize.ShloMosaic.PureOps.Ideal
import Idealize.ShloMosaic.PureOps.ShapeOps

noncomputable section

open scoped BigOperators

namespace Cert.ScatterRows

open Idealize.ShloMosaic Idealize.ShloMosaic.ValueIdx

/-! ## 1. Rows into a matrix -/

/-- The dimension numbers of a scatter of rows: operand `[N, K]`, scatter indices `[E, 1]`, updates `[E, K]`;
    update window axis 1, inserted operand axis 0, the scatter index component goes to operand axis 0, the index
    vector is axis 1 of the indices. -/
abbrev rowScatterDims (N K E : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

section Rows
variable {N K E w : Nat} (wf : ScatterDims.WF ⟨2, ![N, K]⟩ ⟨2, ![E, 1]⟩ ⟨2, ![E, K]⟩ [1] [0] [0] 1)

/-- On the row axis the window of update element `j` starts at `idx[j₀, 0]`, read signed. -/
theorem start_row0 (j : (⟨2, ![E, K]⟩ : Shape).Idx) (idx : IVec ⟨2, ![E, 1]⟩ w) :
    (rowScatterDims N K E wf).start j idx 0 = (idx (ix2 (j 0) (0 : Fin 1))).toInt := by
  unfold ScatterDims.start
  rw [dif_pos (show (0 : Fin 2) ∈ (rowScatterDims N K E wf).scatterDimsToOperandDims from
    List.mem_singleton.mpr rfl)]
  have hsi : (rowScatterDims N K E wf).siIdx j
      ⟨List.idxOf (0 : Fin 2) (rowScatterDims N K E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi] <;> rfl

/-- On the column axis, which no scatter index component names, the window starts at `0`. -/
theorem start_row1 (j : (⟨2, ![E, K]⟩ : Shape).Idx) (idx : IVec ⟨2, ![E, 1]⟩ w) :
    (rowScatterDims N K E wf).start j idx 1 = 0 := by
  unfold ScatterDims.start
  rw [dif_neg (show ¬ (1 : Fin 2) ∈ ([0] : List (Fin 2)) by decide)]

/-- The row axis is inserted: the window coordinate on it is `0`. -/
theorem window_row0 (j : (⟨2, ![E, K]⟩ : Shape).Idx) : (rowScatterDims N K E wf).window j 0 = 0 := rfl

/-- On the column axis the window coordinate of update element `j` is its column `j₁`. -/
theorem window_row1 (j : (⟨2, ![E, K]⟩ : Shape).Idx) : (rowScatterDims N K E wf).window j 1 = (j 1).val := rfl

/-- THE LANDING INDEX OF A ROW SCATTER: update element `j = (e, k)` lands on operand index `i` exactly when
    `idx[e, 0]`, read signed and not clamped, is `i`'s row and `k` is `i`'s column. (When `idx[e, 0]` is outside
    `[0, N)` it lands nowhere: no `i` has that row.) -/
theorem resultIdx?_row (j : (⟨2, ![E, K]⟩ : Shape).Idx) (idx : IVec ⟨2, ![E, 1]⟩ w)
    (i : (⟨2, ![N, K]⟩ : Shape).Idx) :
    (rowScatterDims N K E wf).resultIdx? j idx = some i ↔
      ((idx (ix2 (j 0) (0 : Fin 1))).toInt = ((i 0).val : Int) ∧ (j 1).val = (i 1).val) := by
  have hs0 := start_row0 wf j idx
  have hs1 := start_row1 wf j idx
  have hw0 := window_row0 wf j
  have hw1 := window_row1 wf j
  have hi0 : (i 0).val < N := idx2_lt0 i
  have hi1 : (i 1).val < K := idx2_lt1 i
  have hj1 : (j 1).val < K := idx2_lt1 j
  have hN : (⟨2, ![N, K]⟩ : Shape).size 0 = N := rfl
  have hK : (⟨2, ![N, K]⟩ : Shape).size 1 = K := rfl
  unfold ScatterDims.resultIdx?
  split
  · -- the landing index is inside the operand: compare it with `i` coordinate by coordinate
    rename_i h
    rw [Option.some.injEq]
    have h0 := h 0
    rw [hs0, hw0] at h0
    constructor
    · intro hf
      have e0 := congrArg (fun f => (f 0).val) hf
      have e1 := congrArg (fun f => (f 1).val) hf
      simp only [hs0, hs1, hw0, hw1] at e0 e1
      constructor <;> omega
    · rintro ⟨e0, e1⟩
      funext a
      refine Fin.ext ?_
      match a with
      | ⟨0, _⟩ =>
        show ((rowScatterDims N K E wf).start j idx 0 + ((rowScatterDims N K E wf).window j 0 : Nat)).toNat
          = (i 0).val
        rw [hs0, hw0]; omega
      | ⟨1, _⟩ =>
        show ((rowScatterDims N K E wf).start j idx 1 + ((rowScatterDims N K E wf).window j 1 : Nat)).toNat
          = (i 1).val
        rw [hs1, hw1]; omega
  · -- it is outside: then `idx[e, 0]` is no row of the operand
    rename_i h
    constructor
    · intro hf; cases hf
    · rintro ⟨e0, e1⟩
      exfalso; apply h
      refine Fin.forall_fin_two.mpr ⟨?_, ?_⟩
      · rw [hs0, hw0, hN]; omega
      · rw [hs1, hw1, hK]; omega

/-- THE ACCUMULATING ROW SCATTER AT `(r, k)`, over the extended reals: the operand's element plus the sum, over
    the update rows `e` whose scatter index `idx[e, 0]` (signed, not clamped) is `r`, of `upd[e, k]`. -/
theorem hostScatterAdd_row_apply (x : (⟨2, ![N, K]⟩ : Shape).Idx → EReal) (idx : IVec ⟨2, ![E, 1]⟩ w)
    (upd : (⟨2, ![E, K]⟩ : Shape).Idx → EReal) (r : Fin N) (k : Fin K) :
    Ideal.hostScatterAdd (rowScatterDims N K E wf) x idx upd (ix2 r k) =
      x (ix2 r k) +
        ∑ e : Fin E, if (idx (ix2 e (0 : Fin 1))).toInt = (r.val : Int) then upd (ix2 e k) else 0 := by
  show x (ix2 r k) + ∑ j ∈ Finset.univ.filter
      (fun j => (rowScatterDims N K E wf).resultIdx? j idx = some (ix2 r k)), upd j = _
  congr 1
  -- the sum over the update elements that land on `(r, k)`, as a double sum over rows and columns
  rw [Finset.sum_filter, sum_idx2]
  refine Finset.sum_congr rfl fun e _ => ?_
  have key : ∀ b : Fin K, ((rowScatterDims N K E wf).resultIdx? (ix2 e b) idx = some (ix2 r k)) ↔
      ((idx (ix2 e (0 : Fin 1))).toInt = (r.val : Int) ∧ b = k) := by
    intro b
    rw [resultIdx?_row]
    exact ⟨fun h => ⟨h.1, Fin.ext h.2⟩, fun h => ⟨h.1, congrArg Fin.val h.2⟩⟩
  simp only [key]
  -- in row `e` only column `k` can land on column `k`
  by_cases hA : (idx (ix2 e (0 : Fin 1))).toInt = (r.val : Int)
  · simp [hA]
  · simp [hA]

/-- COLUMN 0 OF THE `K`-WIDE ROW SCATTER IS THE 1-WIDE ROW SCATTER OF THE COLUMNS 0 of the operand and of the
    updates, at the same scatter indices. -/
theorem hostScatterAdd_row_col0 (hK : 0 < K)
    (wf1 : ScatterDims.WF ⟨2, ![N, 1]⟩ ⟨2, ![E, 1]⟩ ⟨2, ![E, 1]⟩ [1] [0] [0] 1)
    (x : (⟨2, ![N, K]⟩ : Shape).Idx → EReal) (idx : IVec ⟨2, ![E, 1]⟩ w)
    (upd : (⟨2, ![E, K]⟩ : Shape).Idx → EReal) (r : Fin N) :
    Ideal.hostScatterAdd (rowScatterDims N K E wf) x idx upd (ix2 r ⟨0, hK⟩) =
      Ideal.hostScatterAdd (rowScatterDims N 1 E wf1) (fun i => x (ix2 (i 0) ⟨0, hK⟩)) idx
        (fun j => upd (ix2 (j 0) ⟨0, hK⟩)) (ix2 r (0 : Fin 1)) := by
  rw [hostScatterAdd_row_apply, hostScatterAdd_row_apply]
  rfl

end Rows

/-! ## 2. A writing scatter with distinct landing indices -/

section SetScatter
variable {α : Type} {s si u : Shape} {w : Nat}

/-- A scatter that WRITES its updates (the body returns the update), every update element `j` landing inside
    the operand at `g j` with `g` injective: at `g j` the result is `upd j`. Taking the update elements in
    row-major order, the running array at `g j` is `upd j` once `j` has been taken and the operand's element
    before, since no other element lands there. -/
theorem scatter_set_apply (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  unfold Host.scatter
  have key : ∀ (l : List (Fin u.numel)) (r : s.Idx → α),
      (l.foldl (fun r n =>
        match d.resultIdx? (u.rowMajor.symm n) idx with
        | some i => fun i' => if i' = i then (fun _ b => b) (r i) (upd (u.rowMajor.symm n)) else r i'
        | none => r) r) (g j) = if u.rowMajor j ∈ l then upd j else r (g j) := by
    intro l
    induction l with
    | nil => intro r; simp
    | cons n l ih =>
      intro r
      rw [List.foldl_cons, ih]
      by_cases hn : u.rowMajor j = n
      · subst hn
        simp [hg]
      · have hne : ¬ g j = g (u.rowMajor.symm n) := fun h => hn (by rw [hinj h]; simp)
        by_cases hl : u.rowMajor j ∈ l
        · simp [hl]
        · simp [hl, hn, hg, hne]
  have h := key (List.finRange u.numel) x
  rw [if_pos (List.mem_finRange _)] at h
  exact h

end SetScatter

/-! ## 3. Padding by one scatter index -/

section Pad
variable {α : Type} {w : Nat}

/-- The dimension numbers that write a column `[M, 1]` into a matrix `[M, C]` at ONE scatter index (indices of
    shape `[1]`, the index vector their only axis): both update axes are window axes, no operand axis is
    inserted, the scatter index's one component is the start on operand axis 1. -/
abbrev padColDims (M C : Nat)
    (wf : ScatterDims.WF ⟨2, ![M, C]⟩ ⟨1, ![1]⟩ ⟨2, ![M, 1]⟩ [0, 1] [] [1] 0) :
    ScatterDims ⟨2, ![M, C]⟩ ⟨1, ![1]⟩ ⟨2, ![M, 1]⟩ where
  updateWindowDims := [0, 1]
  insertedWindowDims := []
  scatterDimsToOperandDims := [1]
  indexVectorDim := 0
  wf := wf

/-- Update element `(k, 0)` of the column lands at `(k, c)`, `c` the column the scatter index names. -/
theorem resultIdx?_padCol {M C : Nat}
    (wf : ScatterDims.WF ⟨2, ![M, C]⟩ ⟨1, ![1]⟩ ⟨2, ![M, 1]⟩ [0, 1] [] [1] 0)
    (idx : IVec ⟨1, ![1]⟩ w) (c : Fin C) (hidx : (idx (ix1 (0 : Fin 1))).toInt = (c.val : Int))
    (j : (⟨2, ![M, 1]⟩ : Shape).Idx) :
    (padColDims M C wf).resultIdx? j idx = some (ix2 (j 0) c : (⟨2, ![M, C]⟩ : Shape).Idx) := by
  have hs0 : (padColDims M C wf).start j idx 0 = 0 := by
    unfold ScatterDims.start
    rw [dif_neg (show ¬ (0 : Fin 2) ∈ ([1] : List (Fin 2)) by decide)]
  have hs1 : (padColDims M C wf).start j idx 1 = (idx (ix1 (0 : Fin 1))).toInt := by
    unfold ScatterDims.start
    rw [dif_pos (show (1 : Fin 2) ∈ (padColDims M C wf).scatterDimsToOperandDims from
      List.mem_singleton.mpr rfl)]
    have hsi : (padColDims M C wf).siIdx j
        ⟨List.idxOf (1 : Fin 2) (padColDims M C wf).scatterDimsToOperandDims,
          List.idxOf_lt_length_iff.2 (List.mem_singleton.mpr rfl)⟩ = ix1 (0 : Fin 1) := by
      funext b; refine Fin.ext ?_
      match b with
      | ⟨0, _⟩ => rfl
    rw [hsi] <;> rfl
  have hw0 : (padColDims M C wf).window j 0 = (j 0).val := rfl
  have hw1 : (padColDims M C wf).window j 1 = (j 1).val := rfl
  have hj0 : (j 0).val < M := idx2_lt0 j
  have hj1 : (j 1).val < 1 := idx2_lt1 j
  have hc : c.val < C := c.isLt
  have hM : (⟨2, ![M, C]⟩ : Shape).size 0 = M := rfl
  have hC : (⟨2, ![M, C]⟩ : Shape).size 1 = C := rfl
  unfold ScatterDims.resultIdx?
  split
  · rw [Option.some.injEq]
    funext a
    refine Fin.ext ?_
    match a with
    | ⟨0, _⟩ =>
      show ((padColDims M C wf).start j idx 0 + ((padColDims M C wf).window j 0 : Nat)).toNat = (j 0).val
      rw [hs0, hw0]; omega
    | ⟨1, _⟩ =>
      show ((padColDims M C wf).start j idx 1 + ((padColDims M C wf).window j 1 : Nat)).toNat = c.val
      rw [hs1, hw1, hidx]; omega
  · rename_i h
    exfalso; apply h
    refine Fin.forall_fin_two.mpr ⟨?_, ?_⟩
    · rw [hs0, hw0, hM]; omega
    · rw [hs1, hw1, hC, hidx]; omega

/-- THE COLUMN WRITTEN AT COLUMN `c`: the result at `(k, c)` is `upd[k, 0]`, for the scatter index naming `c`. -/
theorem padCol_set_apply {M C : Nat}
    (wf : ScatterDims.WF ⟨2, ![M, C]⟩ ⟨1, ![1]⟩ ⟨2, ![M, 1]⟩ [0, 1] [] [1] 0)
    (x : (⟨2, ![M, C]⟩ : Shape).Idx → α) (idx : IVec ⟨1, ![1]⟩ w) (upd : (⟨2, ![M, 1]⟩ : Shape).Idx → α)
    (c : Fin C) (hidx : (idx (ix1 (0 : Fin 1))).toInt = (c.val : Int)) (k : Fin M) :
    Host.scatter (padColDims M C wf) (fun _ b => b) x idx upd (ix2 k c) = upd (ix2 k (0 : Fin 1)) := by
  have hinj : Function.Injective
      (fun j : (⟨2, ![M, 1]⟩ : Shape).Idx => (ix2 (j 0) c : (⟨2, ![M, C]⟩ : Shape).Idx)) := by
    intro j j' h
    have h0 : j 0 = j' 0 := congrFun h 0
    funext a
    match a with
    | ⟨0, _⟩ => exact h0
    | ⟨1, _⟩ =>
      refine Fin.ext ?_
      have h1 : (j 1).val < 1 := idx2_lt1 j
      have h1' : (j' 1).val < 1 := idx2_lt1 j'
      show (j 1).val = (j' 1).val
      omega
  exact scatter_set_apply (padColDims M C wf) x idx upd
    (fun j => (ix2 (j 0) c : (⟨2, ![M, C]⟩ : Shape).Idx))
    (resultIdx?_padCol wf idx c hidx) hinj (ix2 k (0 : Fin 1))

/-- The same at the zero scatter index: column 0 of the result is the column written. -/
theorem padCol_set_zero {M C : Nat} [NeZero C]
    (wf : ScatterDims.WF ⟨2, ![M, C]⟩ ⟨1, ![1]⟩ ⟨2, ![M, 1]⟩ [0, 1] [] [1] 0)
    (x : (⟨2, ![M, C]⟩ : Shape).Idx → α) (upd : (⟨2, ![M, 1]⟩ : Shape).Idx → α) (k : Fin M) :
    Host.scatter (padColDims M C wf) (fun _ b => b) x (fun _ => 0#32) upd (ix2 k (0 : Fin C)) =
      upd (ix2 k (0 : Fin 1)) :=
  padCol_set_apply wf x (fun _ => 0#32) upd (0 : Fin C) (by simp) k

/-- The dimension numbers that write one entry `[1]` into a vector `[M]` at ONE scatter index (indices of shape
    `[1]`, the index vector their only axis): the update's axis is a window axis, the scatter index's one
    component is the start on the operand's axis. -/
abbrev padVecDims (M : Nat)
    (wf : ScatterDims.WF ⟨1, ![M]⟩ ⟨1, ![1]⟩ ⟨1, ![1]⟩ [0] [] [0] 0) :
    ScatterDims ⟨1, ![M]⟩ ⟨1, ![1]⟩ ⟨1, ![1]⟩ where
  updateWindowDims := [0]
  insertedWindowDims := []
  scatterDimsToOperandDims := [0]
  indexVectorDim := 0
  wf := wf

/-- The one update element lands at the position `m` the scatter index names. -/
theorem resultIdx?_padVec {M : Nat}
    (wf : ScatterDims.WF ⟨1, ![M]⟩ ⟨1, ![1]⟩ ⟨1, ![1]⟩ [0] [] [0] 0)
    (idx : IVec ⟨1, ![1]⟩ w) (m : Fin M) (hidx : (idx (ix1 (0 : Fin 1))).toInt = (m.val : Int))
    (j : (⟨1, ![1]⟩ : Shape).Idx) :
    (padVecDims M wf).resultIdx? j idx = some (ix1 m) := by
  have hs0 : (padVecDims M wf).start j idx 0 = (idx (ix1 (0 : Fin 1))).toInt := by
    unfold ScatterDims.start
    rw [dif_pos (show (0 : Fin 1) ∈ (padVecDims M wf).scatterDimsToOperandDims from
      List.mem_singleton.mpr rfl)]
    have hsi : (padVecDims M wf).siIdx j
        ⟨List.idxOf (0 : Fin 1) (padVecDims M wf).scatterDimsToOperandDims,
          List.idxOf_lt_length_iff.2 (List.mem_singleton.mpr rfl)⟩ = ix1 (0 : Fin 1) := by
      funext b; refine Fin.ext ?_
      match b with
      | ⟨0, _⟩ => rfl
    rw [hsi] <;> rfl
  have hw0 : (padVecDims M wf).window j 0 = (j 0).val := rfl
  have hj0 : (j 0).val < 1 := (j 0).isLt
  have hm : m.val < M := m.isLt
  have hM : (⟨1, ![M]⟩ : Shape).size 0 = M := rfl
  unfold ScatterDims.resultIdx?
  split
  · rw [Option.some.injEq]
    funext a
    refine Fin.ext ?_
    match a with
    | ⟨0, _⟩ =>
      show ((padVecDims M wf).start j idx 0 + ((padVecDims M wf).window j 0 : Nat)).toNat = m.val
      rw [hs0, hw0, hidx]; omega
  · rename_i h
    exfalso; apply h
    refine Fin.forall_fin_one.mpr ?_
    rw [hs0, hw0, hM, hidx]; omega

/-- THE ENTRY WRITTEN AT POSITION `m`: the result at `m` is `upd[0]`, for the scatter index naming `m`. -/
theorem padVec_set_apply {M : Nat}
    (wf : ScatterDims.WF ⟨1, ![M]⟩ ⟨1, ![1]⟩ ⟨1, ![1]⟩ [0] [] [0] 0)
    (x : (⟨1, ![M]⟩ : Shape).Idx → α) (idx : IVec ⟨1, ![1]⟩ w) (upd : (⟨1, ![1]⟩ : Shape).Idx → α)
    (m : Fin M) (hidx : (idx (ix1 (0 : Fin 1))).toInt = (m.val : Int)) :
    Host.scatter (padVecDims M wf) (fun _ b => b) x idx upd (ix1 m) = upd (ix1 (0 : Fin 1)) := by
  have hinj : Function.Injective (fun _ : (⟨1, ![1]⟩ : Shape).Idx => ix1 m) := by
    intro j j' _
    funext a
    match a with
    | ⟨0, _⟩ =>
      refine Fin.ext ?_
      have h0 : (j 0).val < 1 := (j 0).isLt
      have h0' : (j' 0).val < 1 := (j' 0).isLt
      show (j 0).val = (j' 0).val
      omega
  exact scatter_set_apply (padVecDims M wf) x idx upd (fun _ => ix1 m)
    (resultIdx?_padVec wf idx m hidx) hinj (ix1 (0 : Fin 1))

/-- The same at the zero scatter index: entry 0 of the result is the entry written. -/
theorem padVec_set_zero {M : Nat} [NeZero M]
    (wf : ScatterDims.WF ⟨1, ![M]⟩ ⟨1, ![1]⟩ ⟨1, ![1]⟩ [0] [] [0] 0)
    (x : (⟨1, ![M]⟩ : Shape).Idx → α) (upd : (⟨1, ![1]⟩ : Shape).Idx → α) :
    Host.scatter (padVecDims M wf) (fun _ b => b) x (fun _ => 0#32) upd (ix1 (0 : Fin M)) =
      upd (ix1 (0 : Fin 1)) :=
  padVec_set_apply wf x (fun _ => 0#32) upd (0 : Fin M) (by simp)

end Pad

end Cert.ScatterRows

end
-- ==== Proof.Layer3Column.lean ====
/-
  Layer 3: column 0 of the kernel program's 128-wide aggregation is the reference's 1-wide aggregation.

  The kernel program pads the 128 × 1 output weights with zero columns to 128 × 128, multiplies, gathers the rows of
  the product by source, scales each gathered row by its edge weight and scatter-adds the rows by target; the
  reference does the same with the 128 × 1 weights.  Column 0 of the padded product is the unpadded product, a row
  gather and the row scaling act column by column, and column 0 of a scatter-add of rows is the scatter-add of the
  rows' entries in column 0.  So at every row r the kernel program's aggregate at (r, 0) is the reference's at (r, 0).
-/
import proofs.«148847_j51170240364590_1_alg».proof.Proof.Gen.ReferenceIdeal.Read
import proofs.«148847_j51170240364590_1_alg».proof.KernelIdeal
import proofs.«148847_j51170240364590_1_alg».proof.Proof.Gen.KernelIdeal
import proofs.«148847_j51170240364590_1_alg».proof.Proof.LibGatherRows
import proofs.«148847_j51170240364590_1_alg».proof.Proof.LibScatterRows

set_option maxRecDepth 16384

noncomputable section

namespace Cert.KernelIdeal.Layer3Column

open Idealize.ShloMosaic Idealize.ShloMosaic.ValueIdx
open Cert.ReferenceIdeal.Read Cert.HarmonicLib Cert.ScatterRows

variable (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal))
  (x3 x4 x5 x6 x7 : (⟨Cert.ReferenceIdeal.S128, .f32⟩ : BufTy).Contents (Elt Ideal)) (x8 : (⟨Cert.ReferenceIdeal.S128x128, .f32⟩ : BufTy).Contents (Elt Ideal)) (x9 x10 x11 x12 x13 : (⟨Cert.ReferenceIdeal.S128, .f32⟩ : BufTy).Contents (Elt Ideal))
  (x14 : (⟨Cert.ReferenceIdeal.S128x1, .f32⟩ : BufTy).Contents (Elt Ideal)) (x15 : (⟨Cert.ReferenceIdeal.S1, .f32⟩ : BufTy).Contents (Elt Ideal))

/-- The product of a 50000 × 128 array and a 128 × 128 one, entry by entry. -/
def prod128 (a : Cert.KernelIdeal.S50000x128.Idx → EReal) (b : Cert.KernelIdeal.S128x128.Idx → EReal) : Cert.KernelIdeal.S50000x128.Idx → EReal :=
  fun i => ∑ k : Fin 128, a (ix2 (i 0) k) * b (ix2 k (i 1))

/-- The row an edge reads: its start index, read signed and clamped into the table. -/
def rowOf (idx : IVec Cert.KernelIdeal.S850000x1 32) (e : Fin 850000) : Fin 50000 :=
  ⟨min (idx (ix2 e (0 : Fin 1))).toInt.toNat (50000 - 1), by omega⟩

/-- The 128-wide row gather at an entry. -/
theorem gather128_apply (L : Cert.KernelIdeal.S50000x128.Idx → EReal) (idx : IVec Cert.KernelIdeal.S850000x1 32) (e : Fin 850000) (q : Fin 128) :
    Host.gather Cert.KernelIdeal.gather_S50000x128_S850000x1_S850000x128_1_0_n_n_0_1_1128 L idx (ix2 e q) = L (ix2 (rowOf idx e) q) :=
  gather_row_apply (N := 50000) (K := 128) (E := 850000) (by decide)
    Cert.KernelIdeal.Facts₀.gather_S50000x128_S850000x1_S850000x128_1_0_n_n_0_1_1128_wf L idx (ix2 e q)

/-- The 1-wide row gather at an entry. -/
theorem gather1_apply (L : Cert.ReferenceIdeal.S50000x1.Idx → EReal) (idx : IVec Cert.ReferenceIdeal.S850000x1 32) (e : Fin 850000) :
    Host.gather Cert.ReferenceIdeal.gather_S50000x1_S850000x1_S850000x1_1_0_n_n_0_1_11 L idx (ix2 e (0 : Fin 1)) = L (ix2 (rowOf idx e) (0 : Fin 1)) :=
  gather_row_apply (N := 50000) (K := 1) (E := 850000) (by decide)
    Cert.ReferenceIdeal.Facts₀.gather_S50000x1_S850000x1_S850000x1_1_0_n_n_0_1_11_wf L idx (ix2 e (0 : Fin 1))

/-- The scaled gathered rows of the padded product, in column 0, are the reference's scaled gathered entries. -/
theorem messages_col0 (W3p : Cert.KernelIdeal.S128x128.Idx → EReal) (hpad : ∀ k : Fin 128, W3p (ix2 k (0 : Fin 128)) = x14 (ix2 k (0 : Fin 1)))
    (e : Fin 850000) :
    mulf (F := Ideal) (φ := .f32) (Host.gather Cert.KernelIdeal.gather_S50000x128_S850000x1_S850000x128_1_0_n_n_0_1_1128
        (prod128 (val_main_v95 (F := Ideal) x0 x1 x2 x3 x4 x5 x6 x7 x8 x9 x10 x11 x12 x13) W3p) (val_main_v40 (F := Ideal) x1)) (val_main_v43 (F := Ideal) x1) (ix2 e (0 : Fin 128))
      = val_main_v105 (F := Ideal) x0 x1 x2 x3 x4 x5 x6 x7 x8 x9 x10 x11 x12 x13 x14 (ix2 e (0 : Fin 1)) := by
  rw [mulf_apply, gather128_apply, val_main_v105_apply]
  show _ = val_main_v103 (F := Ideal) x0 x1 x2 x3 x4 x5 x6 x7 x8 x9 x10 x11 x12 x13 x14 (ix2 e (0 : Fin 1)) * val_main_v104 (F := Ideal) x1 (ix2 e (0 : Fin 1))
  have hg : val_main_v103 (F := Ideal) x0 x1 x2 x3 x4 x5 x6 x7 x8 x9 x10 x11 x12 x13 x14 (ix2 e (0 : Fin 1))
      = val_main_v96 (F := Ideal) x0 x1 x2 x3 x4 x5 x6 x7 x8 x9 x10 x11 x12 x13 x14 (ix2 (rowOf (val_main_v102 (F := Ideal) x1) e) (0 : Fin 1)) := by
    unfold val_main_v103
    exact gather1_apply _ _ e
  have hrow : rowOf (val_main_v102 (F := Ideal) x1) e = rowOf (val_main_v40 (F := Ideal) x1) e := rfl
  have hw : val_main_v43 (F := Ideal) x1 (ix2 e (0 : Fin 128)) = val_main_v104 (F := Ideal) x1 (ix2 e (0 : Fin 1)) := by
    rw [val_main_v43_apply, val_main_v42_apply, val_main_v104_apply]
  have hs : prod128 (val_main_v95 (F := Ideal) x0 x1 x2 x3 x4 x5 x6 x7 x8 x9 x10 x11 x12 x13) W3p (ix2 (rowOf (val_main_v40 (F := Ideal) x1) e) (0 : Fin 128))
      = val_main_v96 (F := Ideal) x0 x1 x2 x3 x4 x5 x6 x7 x8 x9 x10 x11 x12 x13 x14 (ix2 (rowOf (val_main_v40 (F := Ideal) x1) e) (0 : Fin 1)) := by
    rw [val_main_v96_apply]
    unfold prod128
    refine Finset.sum_congr rfl fun k _ => ?_
    rw [hpad k]
    have el : (ix2 ((ix2 (rowOf (val_main_v40 (F := Ideal) x1) e) (0 : Fin 128) : Cert.KernelIdeal.S50000x128.Idx) 0) k : Cert.KernelIdeal.S50000x128.Idx)
        = lidx_main_v96 (ix2 (rowOf (val_main_v40 (F := Ideal) x1) e) (0 : Fin 1)) k := funext fun a => Fin.ext (by
      match a with
      | ⟨0, _⟩ => rfl
      | ⟨1, _⟩ => rfl)
    have er : (ix2 k (0 : Fin 1) : Cert.ReferenceIdeal.S128x1.Idx)
        = ridx_main_v96 (ix2 (rowOf (val_main_v40 (F := Ideal) x1) e) (0 : Fin 1)) k := funext fun a => Fin.ext (by
      match a with
      | ⟨0, _⟩ => rfl
      | ⟨1, _⟩ => rfl)
    rw [el, er]
  rw [hg, hrow, hw, hs]

/-- Column 0 of a 128-wide scatter-add of rows is the 1-wide scatter-add of the operand's and the updates' column 0:
    both are the operand's entry plus the sum of the updates' column-0 entries over the edges landing on the row. -/
theorem scatter_col0 (Z128 : Cert.KernelIdeal.S50000x128.Idx → EReal) (Z1 : Cert.ReferenceIdeal.S50000x1.Idx → EReal)
    (I : IVec Cert.KernelIdeal.S850000x1 32) (U128 : Cert.KernelIdeal.S850000x128.Idx → EReal) (U1 : Cert.ReferenceIdeal.S850000x1.Idx → EReal)
    (hZ : ∀ r : Fin 50000, Z128 (ix2 r (0 : Fin 128)) = Z1 (ix2 r (0 : Fin 1)))
    (hU : ∀ e : Fin 850000, U128 (ix2 e (0 : Fin 128)) = U1 (ix2 e (0 : Fin 1))) (r : Fin 50000) :
    Host.scatterAdd (F := Ideal) (φ := .f32) Cert.KernelIdeal.scatter_S50000x128_S850000x1_S850000x128_1_0_0_1 Z128 I U128 (ix2 r (0 : Fin 128))
      = Host.scatterAdd (F := Ideal) (φ := .f32) Cert.ReferenceIdeal.scatter_S50000x1_S850000x1_S850000x1_1_0_0_1 Z1 I U1 (ix2 r (0 : Fin 1)) := by
  have hL : Host.scatterAdd (F := Ideal) (φ := .f32) Cert.KernelIdeal.scatter_S50000x128_S850000x1_S850000x128_1_0_0_1 Z128 I U128 (ix2 r (0 : Fin 128))
      = Z128 (ix2 r (0 : Fin 128)) + ∑ e : Fin 850000, if (I (ix2 e (0 : Fin 1))).toInt = (r.val : Int) then U128 (ix2 e (0 : Fin 128)) else 0 := by
    unfold Host.scatterAdd
    rw [Ideal.hostScatterAdd_def]
    exact hostScatterAdd_row_apply Cert.KernelIdeal.Facts₀.scatter_S50000x128_S850000x1_S850000x128_1_0_0_1_wf Z128 I U128 r (0 : Fin 128)
  have hR : Host.scatterAdd (F := Ideal) (φ := .f32) Cert.ReferenceIdeal.scatter_S50000x1_S850000x1_S850000x1_1_0_0_1 Z1 I U1 (ix2 r (0 : Fin 1))
      = Z1 (ix2 r (0 : Fin 1)) + ∑ e : Fin 850000, if (I (ix2 e (0 : Fin 1))).toInt = (r.val : Int) then U1 (ix2 e (0 : Fin 1)) else 0 := by
    unfold Host.scatterAdd
    rw [Ideal.hostScatterAdd_def]
    exact hostScatterAdd_row_apply Cert.ReferenceIdeal.Facts₀.scatter_S50000x1_S850000x1_S850000x1_1_0_0_1_wf Z1 I U1 r (0 : Fin 1)
  rw [hL, hR, hZ r]
  exact congrArg (Z1 (ix2 r (0 : Fin 1)) + ·) (Finset.sum_congr rfl fun e _ => by rw [hU e])

/-- Column 0 of the kernel program's aggregate of layer 3 is the reference's aggregate. -/
theorem aggregate_col0 (W3p : Cert.KernelIdeal.S128x128.Idx → EReal) (hpad : ∀ k : Fin 128, W3p (ix2 k (0 : Fin 128)) = x14 (ix2 k (0 : Fin 1)))
    (r : Fin 50000) :
    Host.scatterAdd (F := Ideal) (φ := .f32) Cert.KernelIdeal.scatter_S50000x128_S850000x1_S850000x128_1_0_0_1 (val_main_v45 (F := Ideal)) (val_main_v46 (F := Ideal) x1)
        (mulf (F := Ideal) (φ := .f32) (Host.gather Cert.KernelIdeal.gather_S50000x128_S850000x1_S850000x128_1_0_n_n_0_1_1128
          (prod128 (val_main_v95 (F := Ideal) x0 x1 x2 x3 x4 x5 x6 x7 x8 x9 x10 x11 x12 x13) W3p) (val_main_v40 (F := Ideal) x1)) (val_main_v43 (F := Ideal) x1)) (ix2 r (0 : Fin 128))
      = val_main_v108 (F := Ideal) x0 x1 x2 x3 x4 x5 x6 x7 x8 x9 x10 x11 x12 x13 x14 (ix2 r (0 : Fin 1)) := by
  unfold val_main_v108
  refine scatter_col0 _ _ _ _ _ (fun r' => ?_) (fun e => messages_col0 x0 x1 x2 x3 x4 x5 x6 x7 x8 x9 x10 x11 x12 x13 x14 W3p hpad e) r
  rw [val_main_v45_apply, val_main_cst_9_apply, val_main_v106_apply, val_main_cst_17_apply]

end Cert.KernelIdeal.Layer3Column

end
-- ==== Proof.Output.lean ====
/-
  The output layer and the program's result, against the reference.

  The kernel program pads the 128 × 1 output weights and the bias to 128 columns with zeros, runs the same three
  steps as the hidden layers at width 128 (product, gather-scale-scatter, bias) and returns column 0.  Column 0 of the
  padded product is the product with the unpadded weights, the aggregation acts column by column, and entry 0 of the
  padded bias is the bias, so the returned column is the reference's result, row by row.
-/
import proofs.«148847_j51170240364590_1_alg».proof.Proof.Gen.KernelIdeal.Frame
import proofs.«148847_j51170240364590_1_alg».proof.Proof.Gen.ReferenceIdeal.Read
import proofs.«148847_j51170240364590_1_alg».proof.Proof.Layer1
import proofs.«148847_j51170240364590_1_alg».proof.Proof.Carried
import proofs.«148847_j51170240364590_1_alg».proof.Proof.Hidden
import proofs.«148847_j51170240364590_1_alg».proof.Proof.MatmulRegion4
import proofs.«148847_j51170240364590_1_alg».proof.Proof.AffineRegions
import proofs.«148847_j51170240364590_1_alg».proof.Proof.Layer3Column
import proofs.«148847_j51170240364590_1_alg».proof.Proof.LibScatterRows

set_option maxRecDepth 16384

noncomputable section

namespace Cert.KernelIdeal.Output

open Idealize.ShloMosaic Idealize.ShloMosaic.TcCoe Idealize.ShloMosaic.ValueIdx Idealize.SL.Sem
open Cert.KernelIdeal Cert.KernelIdeal.Gen
open Cert.ReferenceIdeal.Read Cert.ScatterRows
open Cert.KernelIdeal.Layer1 Cert.KernelIdeal.Carried Cert.KernelIdeal.Hidden

variable (m : (ℓ : Loc nD τ sig) → Buf (Elt Ideal) ℓ) (ρ : Dev nD → PrngReg) (c : Dev nD)

/-- The host stretch that pads the weights leaves layer 2's activations alone. -/
theorem hidden2_kept : W8 m ρ c (Proc.devRef .tc main_v73) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  ((by show StableHlo.after hostOps4 (W7 m ρ c) (Proc.devRef .tc main_v73) = W7 m ρ c (Proc.devRef .tc main_v73); after_results_simp <;> rfl :
      W8 m ρ c (Proc.devRef .tc main_v73) = W7 m ρ c (Proc.devRef .tc main_v73))).trans (hidden2 m ρ c)

set_option maxHeartbeats 8000000 in
/-- Column 0 of the padded weights is the weights' one column. -/
theorem padded_weights (k : Fin 128) :
    W8 m ρ c (Proc.devRef .tc main_v76) (ix2 k (0 : Fin 128)) = m ((c : Thread nD τ).loc main_arg14) (ix2 k (0 : Fin 1)) := by
  have h : W8 m ρ c (Proc.devRef .tc main_v76) = Host.scatter scatter_S128x128_S1_S128x1_01_n_1_0 (fun _ b => b)
      (broadcastInDim S128x128 ![] bcast_S_S128x128 (constant (F := Ideal) S_ .f32 0x00000000#32))
      (fun _ => 0#32) (m ((c : Thread nD τ).loc main_arg14)) := by
    show StableHlo.after hostOps4 (W7 m ρ c) (Proc.devRef .tc main_v76) = _
    after_results
    rw [kept7_main_arg14 m ρ c, entry_arg14 m ρ c]
    rfl
  rw [h]
  exact padCol_set_zero Cert.KernelIdeal.Facts₀.scatter_S128x128_S1_S128x1_01_n_1_0_wf _ _ k

set_option maxHeartbeats 8000000 in
/-- Entry 0 of the padded bias is the bias. -/
theorem padded_bias :
    W8 m ρ c (Proc.devRef .tc main_v79) (ix1 (0 : Fin 128)) = m ((c : Thread nD τ).loc main_arg15) (ix1 (0 : Fin 1)) := by
  have h : W8 m ρ c (Proc.devRef .tc main_v79) = Host.scatter scatter_S128_S1_S1_0_n_0_0 (fun _ b => b)
      (broadcastInDim S128 ![] bcast_S_S128 (constant (F := Ideal) S_ .f32 0x00000000#32))
      (fun _ => 0#32) (m ((c : Thread nD τ).loc main_arg15)) := by
    show StableHlo.after hostOps4 (W7 m ρ c) (Proc.devRef .tc main_v79) = _
    after_results
    rw [kept7_main_arg15 m ρ c, entry_arg15 m ρ c]
    rfl
  rw [h]
  exact padVec_set_zero Cert.KernelIdeal.Facts₀.scatter_S128_S1_S1_0_n_0_0_wf _ _

set_option maxHeartbeats 8000000 in
/-- After the third matmul region its output holds h2 times the padded weights. -/
theorem product3 : W9 m ρ c (Proc.devRef .tc main_v80)
    = MatmulRegion4.prod (val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (W8 m ρ c (Proc.devRef .tc main_v76)) := by
  refine (W9_arr m ρ c 2).trans ?_
  rw [MatmulRegion4.output_eq]
  have h0 : V8 m ρ c (Pipeline.arrRef spec4 0) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := hidden2_kept m ρ c
  rw [h0]

/-- The third matmul region leaves the padded bias alone. -/
theorem bias_kept : W9 m ρ c (Proc.devRef .tc main_v79) = W8 m ρ c (Proc.devRef .tc main_v79) :=
  W9_of_ne m ρ c main_v79 (by decide)

set_option maxHeartbeats 8000000 in
/-- Column 0 of layer 3's aggregate is the reference's aggregate. -/
theorem aggregate3 (r : Fin 50000) :
    W10 m ρ c (Proc.devRef .tc main_v93) (ix2 r (0 : Fin 128)) = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 r (0 : Fin 1)) := by
  show StableHlo.after hostOps5 (W9 m ρ c) (Proc.devRef .tc main_v93) (ix2 r (0 : Fin 128)) = _
  after_results
  rw [product3 m ρ c, kept9_main_v3 m ρ c, kept9_main_v6 m ρ c, kept9_main_v33 m ρ c,
    entry_sources m ρ c, entry_targets m ρ c, entry_weights m ρ c]
  unfold val_main_v108
  refine Layer3Column.scatter_col0 _ _ _ _ _ (fun r' => ?_) (fun e => ?_) r
  · rw [val_main_v106_apply, val_main_cst_17_apply]
    rfl
  · exact Layer3Column.messages_col0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (W8 m ρ c (Proc.devRef .tc main_v76)) (padded_weights m ρ c) e

set_option maxHeartbeats 8000000 in
/-- Entry (0, 0) of the bias row the last region reads is the bias. -/
theorem bias_entry :
    W10 m ρ c (Proc.devRef .tc main_v96) (ix2 (0 : Fin 1) (0 : Fin 128)) = m ((c : Thread nD τ).loc main_arg15) (ix1 (0 : Fin 1)) := by
  have h : W10 m ρ c (Proc.devRef .tc main_v96) = shapeCast S1x128 (W9 m ρ c (Proc.devRef .tc main_v79)) shapeCasts_S128_S1x128 := by
    show StableHlo.after hostOps5 (W9 m ρ c) (Proc.devRef .tc main_v96) = _
    after_results
    all_goals rfl
  rw [h, row_of_vector, bias_kept m ρ c]
  exact padded_bias m ρ c

set_option maxHeartbeats 8000000 in
/-- THE RESULT: the buffer the kernel program returns holds the reference's result. -/
theorem result : W12 m ρ c (Proc.devRef .tc main_v102) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  obtain ⟨r, q, rfl⟩ : ∃ (r : Fin 50000) (q : Fin 1), i = ix2 r q := ⟨i 0, i 1, eq_ix2 i⟩
  obtain rfl : q = 0 := Subsingleton.elim _ _
  have h12 : W12 m ρ c (Proc.devRef .tc main_v102) (ix2 r (0 : Fin 1)) = W11 m ρ c (Proc.devRef .tc main_v101) (ix2 r (0 : Fin 128)) := by
    have h : W12 m ρ c (Proc.devRef .tc main_v102)
        = extractStridedSlice S50000x1 ![0, 0] (W11 m ρ c (Proc.devRef .tc main_v101)) slices_S50000x128_S50000x1_0_0 := by
      show StableHlo.after hostOps6 (W11 m ρ c) (Proc.devRef .tc main_v102) = _
      after_results
      all_goals rfl
    rw [h]
    exact extractStridedSlice_apply ![0, 0] _ slices_S50000x128_S50000x1_0_0 (ix2 r (0 : Fin 1)) (ix2 r (0 : Fin 128)) (fun a => match a with
      | ⟨0, _⟩ => by show r.val = 0 + r.val; omega
      | ⟨1, _⟩ => by show (0 : Nat) = 0 + 0; rfl)
  rw [h12]
  have h11 : W11 m ρ c (Proc.devRef .tc main_v101) (ix2 r (0 : Fin 128))
      = Affine.addBias (W10 m ρ c (Proc.devRef .tc main_v93) (ix2 r (0 : Fin 128))) (W10 m ρ c (Proc.devRef .tc main_v96) (ix2 (0 : Fin 1) (0 : Fin 128))) :=
    congrFun ((W11_arr m ρ c 6).trans (Affine.final5 (V10 m ρ) c)) (ix2 r (0 : Fin 128))
  rw [h11, aggregate3 m ρ c r, bias_entry m ρ c, val_main_v111_apply, val_main_v110_apply, val_main_v109_apply]
  have eb : idx_main_v109 (idx_main_v110 (ix2 r (0 : Fin 1))) = ix1 (0 : Fin 1) := funext fun a => Fin.ext (by match a with | ⟨0, _⟩ => rfl)
  rw [eb]

end Cert.KernelIdeal.Output

end
-- ==== Proof.lean ====
/-
  A three-layer graph convolution network, kernel program against reference, on the extended reals.

  Both programs append a self loop to every node, count degrees, and weight edge (s, t) by
  1/sqrt(max(deg s, 1)) · 1/sqrt(max(deg t, 1)).  A layer multiplies the node features by a weight matrix, gathers the
  product's rows by edge source, scales each by its edge weight, adds them up by edge target, and adds a bias; the two
  hidden layers then apply batch normalisation with stored statistics and clamp at zero.  The kernel program computes
  the matrix products and the bias / normalisation / clamp steps in pallas_call regions over ten blocks of 5000 rows,
  rounding the matrix unit's operands to bf16, and pads the last layer's 128 × 1 weights and its bias to 128 columns,
  returning column 0.  With exact arithmetic a change of float format is the identity, a blocked product is the
  product, the normalisation is the same expression entry by entry, and column 0 of the padded layer is the unpadded
  layer; the gather, scaling and scatter-add are the same host operations on both sides.  So every buffer of the
  kernel program holds the reference's value of the corresponding operation, and the results are equal.
  The three frame claims are the programs' runs with the result forgotten; the kernel program is its own
  idealization (no operation was rewritten), so the preservation claim is trivial.
-/
import proofs.«148847_j51170240364590_1_alg».proof.Defs
import proofs.«148847_j51170240364590_1_alg».proof.Proof.Gen.Kernel
import proofs.«148847_j51170240364590_1_alg».proof.Proof.Gen.Kernel.Skeleton
import proofs.«148847_j51170240364590_1_alg».proof.Proof.Gen.Kernel.Launch
import proofs.«148847_j51170240364590_1_alg».proof.Proof.Gen.Kernel.Points
import proofs.«148847_j51170240364590_1_alg».proof.Proof.Gen.Kernel.Frame
import proofs.«148847_j51170240364590_1_alg».proof.Proof.Gen.KernelIdeal
import proofs.«148847_j51170240364590_1_alg».proof.Proof.Gen.KernelIdeal.Skeleton
import proofs.«148847_j51170240364590_1_alg».proof.Proof.Gen.KernelIdeal.Launch
import proofs.«148847_j51170240364590_1_alg».proof.Proof.Gen.KernelIdeal.Points
import proofs.«148847_j51170240364590_1_alg».proof.Proof.Gen.KernelIdeal.Frame
import proofs.«148847_j51170240364590_1_alg».proof.Proof.Gen.ReferenceIdeal
import proofs.«148847_j51170240364590_1_alg».proof.Proof.Gen.ReferenceIdeal.Run
import proofs.«148847_j51170240364590_1_alg».proof.Proof.Gen.ReferenceIdeal.Read
import proofs.«148847_j51170240364590_1_alg».proof.Proof.Gen.Pre_finite_inputs
import proofs.«148847_j51170240364590_1_alg».proof.Proof.ValueRun
import proofs.«148847_j51170240364590_1_alg».proof.Proof.Output
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs run; the kernel program's result buffer ends at the fold of
    its stages through the launch memory, which is the reference's composed term of the same arguments. -/
theorem algebraic : Cert.algebraic_KernelIdeal_ReferenceIdeal := by
  intro m ρ m' ρ' _ hagree
  refine ⟨fun c => Cert.KernelIdeal.Gen.W12 m ρ c (Proc.devRef .tc Cert.KernelIdeal.main_v102),
    Cert.KernelIdeal.ValueRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v111_eq, a0, a1, a2, a3, a4, a5, a6, a7, a8, a9, a10, a11, a12, a13, a14, a15]
  exact (Cert.KernelIdeal.Output.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
